-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S7168x2048 : Shape := ⟨2, ![7168, 2048]⟩
abbrev S56x16 : Shape := ⟨2, ![56, 16]⟩
abbrev S2048x7168 : Shape := ⟨2, ![2048, 7168]⟩
abbrev S16x56 : Shape := ⟨2, ![16, 56]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S7168x2048 : S_.BroadcastsInDim S7168x2048 (![] : Fin 0 → Fin S7168x2048.rank)
  reducesTo_S7168x2048_S_d0_1 : S7168x2048.ReducesTo [0, 1] S_
  bcast_S_S56x16 : S_.BroadcastsInDim S56x16 (![] : Fin 0 → Fin S56x16.rank)
  reducesTo_S56x16_S_d0_1 : S56x16.ReducesTo [0, 1] S_
  bcast_S_S2048x7168 : S_.BroadcastsInDim S2048x7168 (![] : Fin 0 → Fin S2048x7168.rank)
  reducesTo_S2048x7168_S_d0_1 : S2048x7168.ReducesTo [0, 1] S_
  bcast_S_S16x56 : S_.BroadcastsInDim S16x56 (![] : Fin 0 → Fin S16x56.rank)
  reducesTo_S16x56_S_d0_1 : S16x56.ReducesTo [0, 1] S_

variable [Facts]

def fn_part1 {F : FTy → Type} [FloatOps F] (main_arg4 : FVec F S56x16 .f32) (main_arg5 : FVec F S2048x7168 .f32) (main_arg6 : FVec F S16x56 .f32) (main_v13 : IVec S_ 1) (main_v16 : IVec S7168x2048 1) : IVec S_ 1 :=
  let main_c_5 : IVec S_ 1 := constantI S_ 1 1#1
  let main_v17 : IVec S_ 1 := (fun x v => Host.reduce IntOp.andi x v reducesTo_S7168x2048_S_d0_1 h_S_) main_v16 main_c_5
  let main_v18 : IVec S_ 1 := andi main_v13 main_v17
  let main_v19 : FVec F S56x16 .f32 := Host.absf main_arg4
  let main_cst_6 : FVec F S_ .f32 := constant S_ .f32 0x7F800000#32
  let main_v20 : FVec F S56x16 .f32 := broadcastInDim S56x16 ![] bcast_S_S56x16 main_cst_6
  let main_v21 : IVec S56x16 1 := cmpf .olt main_v19 main_v20
  let main_c_7 : IVec S_ 1 := constantI S_ 1 1#1
  let main_v22 : IVec S_ 1 := (fun x v => Host.reduce IntOp.andi x v reducesTo_S56x16_S_d0_1 h_S_) main_v21 main_c_7
  let main_v23 : IVec S_ 1 := andi main_v18 main_v22
  let main_v24 : FVec F S2048x7168 .f32 := Host.absf main_arg5
  let main_cst_8 : FVec F S_ .f32 := constant S_ .f32 0x7F800000#32
  let main_v25 : FVec F S2048x7168 .f32 := broadcastInDim S2048x7168 ![] bcast_S_S2048x7168 main_cst_8
  let main_v26 : IVec S2048x7168 1 := cmpf .olt main_v24 main_v25
  let main_c_9 : IVec S_ 1 := constantI S_ 1 1#1
  let main_v27 : IVec S_ 1 := (fun x v => Host.reduce IntOp.andi x v reducesTo_S2048x7168_S_d0_1 h_S_) main_v26 main_c_9
  let main_v28 : IVec S_ 1 := andi main_v23 main_v27
  let main_v29 : FVec F S16x56 .f32 := Host.absf main_arg6
  let main_cst_10 : FVec F S_ .f32 := constant S_ .f32 0x7F800000#32
  let main_v30 : FVec F S16x56 .f32 := broadcastInDim S16x56 ![] bcast_S_S16x56 main_cst_10
  let main_v31 : IVec S16x56 1 := cmpf .olt main_v29 main_v30
  let main_c_11 : IVec S_ 1 := constantI S_ 1 1#1
  let main_v32 : IVec S_ 1 := (fun x v => Host.reduce IntOp.andi x v reducesTo_S16x56_S_d0_1 h_S_) main_v31 main_c_11
  let main_v33 : IVec S_ 1 := andi main_v28 main_v32
  main_v33

def fn {F : FTy → Type} [FloatOps F] (main_arg0 : FVec F S4096x2048 .f32) (main_arg1 : FVec F S7168x2048 .f32) (main_arg2 : FVec F S56x16 .f32) (main_arg3 : FVec F S7168x2048 .f32) (main_arg4 : FVec F S56x16 .f32) (main_arg5 : FVec F S2048x7168 .f32) (main_arg6 : FVec F S16x56 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S7168x2048 .f32 := Host.absf main_arg1
  let main_cst_0 : FVec F S_ .f32 := constant S_ .f32 0x7F800000#32
  let main_v5 : FVec F S7168x2048 .f32 := broadcastInDim S7168x2048 ![] bcast_S_S7168x2048 main_cst_0
  let main_v6 : IVec S7168x2048 1 := cmpf .olt main_v4 main_v5
  let main_c_1 : IVec S_ 1 := constantI S_ 1 1#1
  let main_v7 : IVec S_ 1 := (fun x v => Host.reduce IntOp.andi x v reducesTo_S7168x2048_S_d0_1 h_S_) main_v6 main_c_1
  let main_v8 : IVec S_ 1 := andi main_v3 main_v7
  let main_v9 : FVec F S56x16 .f32 := Host.absf main_arg2
  let main_cst_2 : FVec F S_ .f32 := constant S_ .f32 0x7F800000#32
  let main_v10 : FVec F S56x16 .f32 := broadcastInDim S56x16 ![] bcast_S_S56x16 main_cst_2
  let main_v11 : IVec S56x16 1 := cmpf .olt main_v9 main_v10
  let main_c_3 : IVec S_ 1 := constantI S_ 1 1#1
  let main_v12 : IVec S_ 1 := (fun x v => Host.reduce IntOp.andi x v reducesTo_S56x16_S_d0_1 h_S_) main_v11 main_c_3
  let main_v13 : IVec S_ 1 := andi main_v8 main_v12
  let main_v14 : FVec F S7168x2048 .f32 := Host.absf main_arg3
  let main_cst_4 : FVec F S_ .f32 := constant S_ .f32 0x7F800000#32
  let main_v15 : FVec F S7168x2048 .f32 := broadcastInDim S7168x2048 ![] bcast_S_S7168x2048 main_cst_4
  let main_v16 : IVec S7168x2048 1 := cmpf .olt main_v14 main_v15
  fn_part1 (F := F) main_arg4 main_arg5 main_arg6 main_v13 main_v16
-- ==== Kernel.lean ====
abbrev S4096x2048 : Shape := ⟨2, ![4096, 2048]⟩
abbrev S7168x2048 : Shape := ⟨2, ![7168, 2048]⟩
abbrev S56x16 : Shape := ⟨2, ![56, 16]⟩
abbrev S2048x7168 : Shape := ⟨2, ![2048, 7168]⟩
abbrev S16x56 : Shape := ⟨2, ![16, 56]⟩
abbrev S56x128x16x128 : Shape := ⟨4, ![56, 128, 16, 128]⟩
abbrev S56x1x16x1 : Shape := ⟨4, ![56, 1, 16, 1]⟩
abbrev S16x128x56x128 : Shape := ⟨4, ![16, 128, 56, 128]⟩
abbrev S16x1x56x1 : Shape := ⟨4, ![16, 1, 56, 1]⟩
abbrev S4096x7168 : Shape := ⟨2, ![4096, 7168]⟩
abbrev S1024x2048 : Shape := ⟨2, ![1024, 2048]⟩
abbrev S512x2048 : Shape := ⟨2, ![512, 2048]⟩
abbrev S1024x512 : Shape := ⟨2, ![1024, 512]⟩
abbrev S1024x1024 : Shape := ⟨2, ![1024, 1024]⟩

abbrev nBuf : Space → Nat
  | .hbm => 28
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S7168x2048, .f32⟩
  | .hbm, ⟨2, _⟩ => ⟨S56x16, .f32⟩
  | .hbm, ⟨3, _⟩ => ⟨S7168x2048, .f32⟩
  | .hbm, ⟨4, _⟩ => ⟨S56x16, .f32⟩
  | .hbm, ⟨5, _⟩ => ⟨S2048x7168, .f32⟩
  | .hbm, ⟨6, _⟩ => ⟨S16x56, .f32⟩
  | .hbm, ⟨7, _⟩ => ⟨S4096x2048, .bf16⟩
  | .hbm, ⟨8, _⟩ => ⟨S56x128x16x128, .f32⟩
  | .hbm, ⟨9, _⟩ => ⟨S56x1x16x1, .f32⟩
  | .hbm, ⟨10, _⟩ => ⟨S56x128x16x128, .f32⟩
  | .hbm, ⟨11, _⟩ => ⟨S56x128x16x128, .f32⟩
  | .hbm, ⟨12, _⟩ => ⟨S7168x2048, .f32⟩
  | .hbm, ⟨13, _⟩ => ⟨S7168x2048, .bf16⟩
  | .hbm, ⟨14, _⟩ => ⟨S56x128x16x128, .f32⟩
  | .hbm, ⟨15, _⟩ => ⟨S56x1x16x1, .f32⟩
  | .hbm, ⟨16, _⟩ => ⟨S56x128x16x128, .f32⟩
  | .hbm, ⟨17, _⟩ => ⟨S56x128x16x128, .f32⟩
  | .hbm, ⟨18, _⟩ => ⟨S7168x2048, .f32⟩
  | .hbm, ⟨19, _⟩ => ⟨S7168x2048, .bf16⟩
  | .hbm, ⟨20, _⟩ => ⟨S16x128x56x128, .f32⟩
  | .hbm, ⟨21, _⟩ => ⟨S16x1x56x1, .f32⟩
  | .hbm, ⟨22, _⟩ => ⟨S16x128x56x128, .f32⟩
  | .hbm, ⟨23, _⟩ => ⟨S16x128x56x128, .f32⟩
  | .hbm, ⟨24, _⟩ => ⟨S2048x7168, .f32⟩
  | .hbm, ⟨25, _⟩ => ⟨S2048x7168, .bf16⟩
  | .hbm, ⟨26, _⟩ => ⟨S4096x7168, .bf16⟩
  | .hbm, ⟨27, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![4, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 2, 7], ![false, false, false]⟩

def k1_cond2 (i : grid1.Coords) : BitVec 1 :=
  let arg2 : BitVec 32 := BitVec.ofNat 32 (i 2).val
  let c6_i32 : BitVec 32 := 6#32
  let v13 : BitVec 1 := Scalar.cmpi .eq arg2 c6_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  bitsLt_bf16_f32 : FTy.bits .bf16 < FTy.bits .f32
  shapeCasts_S7168x2048_S56x128x16x128 : S7168x2048.ShapeCasts S56x128x16x128
  bcast_S56x16_S56x1x16x1_0_2 : S56x16.BroadcastsInDim S56x1x16x1 (![0, 2] : Fin 2 → Fin S56x1x16x1.rank)
  bcast_S56x1x16x1_S56x128x16x128_0_1_2_3 : S56x1x16x1.BroadcastsInDim S56x128x16x128 (![0, 1, 2, 3] : Fin 4 → Fin S56x128x16x128.rank)
  shapeCasts_S56x128x16x128_S7168x2048 : S56x128x16x128.ShapeCasts S7168x2048
  shapeCasts_S2048x7168_S16x128x56x128 : S2048x7168.ShapeCasts S16x128x56x128
  bcast_S16x56_S16x1x56x1_0_2 : S16x56.BroadcastsInDim S16x1x56x1 (![0, 2] : Fin 2 → Fin S16x1x56x1.rank)
  bcast_S16x1x56x1_S16x128x56x128_0_1_2_3 : S16x1x56x1.BroadcastsInDim S16x128x56x128 (![0, 1, 2, 3] : Fin 4 → Fin S16x128x56x128.rank)
  shapeCasts_S16x128x56x128_S2048x7168 : S16x128x56x128.ShapeCasts S2048x7168
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x2048_S512x2048_S1024x512_1_1_0_0_n_n_wf : DotDims.WF S1024x2048 S512x2048 S1024x512 [1] [1] [0] [0] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S7168x2048.size a
  hwx0_1 : ∀ i : grid0.Coords, EltTy.bits .bf16 = 32 ∨ (Rect.block (s := S7168x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S7168x2048.size a
  hwx0_2 : ∀ i : grid0.Coords, EltTy.bits .bf16 = 32 ∨ (Rect.block (s := S7168x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x7168.size a
  hwx0_3 : ∀ i : grid0.Coords, EltTy.bits .bf16 = 32 ∨ (Rect.block (s := S4096x7168) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x7168.size a
  hwx1_0 : ∀ i : grid1.Coords, EltTy.bits .bf16 = 32 ∨ (Rect.block (s := S4096x7168) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S2048x7168.size a
  hwx1_1 : ∀ i : grid1.Coords, EltTy.bits .bf16 = 32 ∨ (Rect.block (s := S2048x7168) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x2048.size a
  hwx1_2 : ∀ i : grid1.Coords, EltTy.bits .f32 = 32 ∨ (Rect.block (s := S4096x2048) S1024x1024.size (cc1_transform_2 i) (hinb1_2 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x2048 : Shape := ⟨2, ![4096, 2048]⟩
abbrev S7168x2048 : Shape := ⟨2, ![7168, 2048]⟩
abbrev S56x16 : Shape := ⟨2, ![56, 16]⟩
abbrev S2048x7168 : Shape := ⟨2, ![2048, 7168]⟩
abbrev S16x56 : Shape := ⟨2, ![16, 56]⟩
abbrev S56x128x16x128 : Shape := ⟨4, ![56, 128, 16, 128]⟩
abbrev S56x1x16x1 : Shape := ⟨4, ![56, 1, 16, 1]⟩
abbrev S16x128x56x128 : Shape := ⟨4, ![16, 128, 56, 128]⟩
abbrev S16x1x56x1 : Shape := ⟨4, ![16, 1, 56, 1]⟩
abbrev S4096x7168 : Shape := ⟨2, ![4096, 7168]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S7168x2048, .f32⟩
  | .hbm, ⟨2, _⟩ => ⟨S56x16, .f32⟩
  | .hbm, ⟨3, _⟩ => ⟨S7168x2048, .f32⟩
  | .hbm, ⟨4, _⟩ => ⟨S56x16, .f32⟩
  | .hbm, ⟨5, _⟩ => ⟨S2048x7168, .f32⟩
  | .hbm, ⟨6, _⟩ => ⟨S16x56, .f32⟩
  | .hbm, ⟨7, _⟩ => ⟨S56x128x16x128, .f32⟩
  | .hbm, ⟨8, _⟩ => ⟨S56x1x16x1, .f32⟩
  | .hbm, ⟨9, _⟩ => ⟨S56x128x16x128, .f32⟩
  | .hbm, ⟨10, _⟩ => ⟨S56x128x16x128, .f32⟩
  | .hbm, ⟨11, _⟩ => ⟨S7168x2048, .f32⟩
  | .hbm, ⟨12, _⟩ => ⟨S56x128x16x128, .f32⟩
  | .hbm, ⟨13, _⟩ => ⟨S56x1x16x1, .f32⟩
  | .hbm, ⟨14, _⟩ => ⟨S56x128x16x128, .f32⟩
  | .hbm, ⟨15, _⟩ => ⟨S56x128x16x128, .f32⟩
  | .hbm, ⟨16, _⟩ => ⟨S7168x2048, .f32⟩
  | .hbm, ⟨17, _⟩ => ⟨S16x128x56x128, .f32⟩
  | .hbm, ⟨18, _⟩ => ⟨S16x1x56x1, .f32⟩
  | .hbm, ⟨19, _⟩ => ⟨S16x128x56x128, .f32⟩
  | .hbm, ⟨20, _⟩ => ⟨S16x128x56x128, .f32⟩
  | .hbm, ⟨21, _⟩ => ⟨S2048x7168, .f32⟩
  | .hbm, ⟨22, _⟩ => ⟨S2048x7168, .f32⟩
  | .hbm, ⟨23, _⟩ => ⟨S4096x7168, .f32⟩
  | .hbm, ⟨24, _⟩ => ⟨S2048x7168, .f32⟩
  | .hbm, ⟨25, _⟩ => ⟨S4096x7168, .f32⟩
  | .hbm, ⟨26, _⟩ => ⟨S4096x7168, .f32⟩
  | .hbm, ⟨27, _⟩ => ⟨S4096x7168, .f32⟩
  | .hbm, ⟨28, _⟩ => ⟨S_, .f32⟩
  | .hbm, ⟨29, _⟩ => ⟨S4096x7168, .f32⟩
  | .hbm, ⟨30, _⟩ => ⟨S4096x7168, .f32⟩
  | .hbm, ⟨31, _⟩ => ⟨S_, .f32⟩
  | .hbm, ⟨32, _⟩ => ⟨S4096x7168, .f32⟩
  | .hbm, ⟨33, _⟩ => ⟨S4096x7168, .f32⟩
  | .hbm, ⟨34, _⟩ => ⟨S4096x7168, .f32⟩
  | .hbm, ⟨35, _⟩ => ⟨S4096x7168, .f32⟩
  | .hbm, ⟨36, _⟩ => ⟨S7168x2048, .f32⟩
  | .hbm, ⟨37, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  shapeCasts_S7168x2048_S56x128x16x128 : S7168x2048.ShapeCasts S56x128x16x128
  bcast_S56x16_S56x1x16x1_0_2 : S56x16.BroadcastsInDim S56x1x16x1 (![0, 2] : Fin 2 → Fin S56x1x16x1.rank)
  bcast_S56x1x16x1_S56x128x16x128_0_1_2_3 : S56x1x16x1.BroadcastsInDim S56x128x16x128 (![0, 1, 2, 3] : Fin 4 → Fin S56x128x16x128.rank)
  shapeCasts_S56x128x16x128_S7168x2048 : S56x128x16x128.ShapeCasts S7168x2048
  shapeCasts_S2048x7168_S16x128x56x128 : S2048x7168.ShapeCasts S16x128x56x128
  bcast_S16x56_S16x1x56x1_0_2 : S16x56.BroadcastsInDim S16x1x56x1 (![0, 2] : Fin 2 → Fin S16x1x56x1.rank)
  bcast_S16x1x56x1_S16x128x56x128_0_1_2_3 : S16x1x56x1.BroadcastsInDim S16x128x56x128 (![0, 1, 2, 3] : Fin 4 → Fin S16x128x56x128.rank)
  shapeCasts_S16x128x56x128_S2048x7168 : S16x128x56x128.ShapeCasts S2048x7168
  transposes_S7168x2048_S2048x7168_1_0 : S7168x2048.Transposes [1, 0] S2048x7168
  bcast_S_S4096x7168 : S_.BroadcastsInDim S4096x7168 (![] : Fin 0 → Fin S4096x7168.rank)
  transposes_S2048x7168_S7168x2048_1_0 : S2048x7168.Transposes [1, 0] S7168x2048
  dot_S4096x2048_S2048x7168_S4096x7168_1_0_0_1_n_n_wf : DotDims.WF S4096x2048 S2048x7168 S4096x7168 [1] [0] [0] [1] [] []
  dot_S4096x7168_S7168x2048_S4096x2048_1_0_0_1_n_n_wf : DotDims.WF S4096x7168 S7168x2048 S4096x2048 [1] [0] [0] [1] [] []

variable [Facts₀]

def dot_S4096x2048_S2048x7168_S4096x7168_1_0_0_1_n_n : DotDims S4096x2048 S2048x7168 S4096x7168 where
  lhsContracting := [1]
  rhsContracting := [0]
  lhsNonContracting := [0]
  rhsNonContracting := [1]
  lhsBatch := []
  rhsBatch := []
  wf := dot_S4096x2048_S2048x7168_S4096x7168_1_0_0_1_n_n_wf
def dot_S4096x7168_S7168x2048_S4096x2048_1_0_0_1_n_n : DotDims S4096x7168 S7168x2048 S4096x2048 where
  lhsContracting := [1]
  rhsContracting := [0]
  lhsNonContracting := [0]
  rhsNonContracting := [1]
  lhsBatch := []
  rhsBatch := []
  wf := dot_S4096x7168_S7168x2048_S4096x2048_1_0_0_1_n_n_wf

class Facts : Prop extends Facts₀ where

variable [Facts]
-- ==== Proof.BitsUp.lean ====
/-
  The first kernel region — the two up-projections and the gate — as a pipeline over its grid of 4 × 14 points.

  At a point (i, j) the pipeline hands the body the token block i (1024 rows, all 2048 columns), the blocks j of the two
  scaled weight matrices (512 rows each) and an output block (1024 × 512). The body reads the three inputs whole,
  computes both products over the full contraction axis, the gate, and stores the result over the whole output block;
  it carries nothing from point to point. So after the body every input buffer still holds its block and the output
  buffer holds one function of the three input blocks. This file states that, for any float instance, at a parameter
  `V`: the contents of the core's buffers when the region is entered.
-/
import proofs.«151965_j90640989814791_2_alg».proof.Proof.Gen.Kernel.Launch
import proofs.«151965_j90640989814791_2_alg».proof.Proof.Gen.Kernel.Skeleton
import proofs.«151965_j90640989814791_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The token window's staging buffer holds its block at every point, whether the point fetched it or the block index
    did not move, for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the first weight window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the second weight window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev rX : Rect S1024x2048 := Rect.unit (s := S1024x2048) ![0, 0] S1024x2048.size inb_S1024x2048_S1024x2048_0_0
abbrev rW : Rect S512x2048 := Rect.unit (s := S512x2048) ![0, 0] S512x2048.size inb_S512x2048_S512x2048_0_0
abbrev rH : Rect S1024x512 := Rect.unit (s := S1024x512) ![0, 0] S1024x512.size inb_S1024x512_S1024x512_0_0

/-! ## What the body leaves in the output block -/

/-- The output buffer after the body, from the three input blocks: its one store, of the gated product of the two
    projections, over the whole block. -/
def out0_3 (x0 : Vec F S1024x2048 .bf16) (x1 : Vec F S512x2048 .bf16) (x2 : Vec F S512x2048 .bf16) : Vec F S1024x512 .bf16 :=
  View.canon [⟨rH, k0_pay1 (View.ld x0 rX) (View.ld x1 rW) (View.ld x0 rX) (View.ld x2 rW)⟩]

/-- The one store covers the block. -/
theorem cover0_3 (p0 : Vec F S1024x512 .bf16) (y : S1024x512.Idx) :
    ∃ pc ∈ ([⟨rH, p0⟩] : List (View.Piece (Elt F) S1024x512 .bf16)), y ∈ pc.1.set :=
  View.cover_of_tiled [⟨rH, p0⟩] S1024x512.size (by rfl) y

/-! ## The body's triple -/

set_option maxHeartbeats 1000000 in
/-- The body on whole staging buffers — the inputs at contents `x0`, `x1`, `x2`, the output at anything — runs to the
    end, faults nowhere, leaves the inputs as they were and the output at `out0_3` of them. -/
theorem sound_kernel0 (c : Dev nD) (E : Set ℕ) (i : grid0.Coords)
    (arg2 : Memref sig .tc .vmem S1024x2048 .bf16) (harg2 : arg2.IsWhole) (arg3 : Memref sig .tc .vmem S512x2048 .bf16) (harg3 : arg3.IsWhole)
    (arg4 : Memref sig .tc .vmem S512x2048 .bf16) (harg4 : arg4.IsWhole) (arg5 : Memref sig .tc .vmem S1024x512 .bf16) (harg5 : arg5.IsWhole)
    (x0 : Vec F S1024x2048 .bf16) (x1 : Vec F S512x2048 .bf16) (x2 : Vec F S512x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__gemm13_act_kernel i arg2 harg2 arg3 harg3 arg4 harg4 arg5 harg5) K := by
  simp only [cc0__gemm13_act_kernel_eq_skeleton]; unfold cc0__gemm13_act_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data on core `c`: the arrays as the region finds them; after the body at point `t` each input buffer at
    its block and the output buffer at `out0_3` of the three blocks; the invariant the untouched scoped rest and the
    generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsDownRuns.lean ====
/-
  The second kernel region — the down-projection, accumulated over the hidden axis — one body run per case.

  Its grid has 4 × 2 × 7 points (i, j, k). At a point the body gets block (i, k) of the hidden activations, block (j, k) of
  the scaled down-projection weights (1024 × 1024 each), the output block (i, j) and one scratch block that outlives the
  point. If k = 0 it first stores zeros over the scratch; it then stores scratch + (activations · weightsᵀ) over the
  scratch; if k = 6 it finally copies the scratch over the output block. So there are three kinds of point — the first
  of a run of seven (k = 0), the middle ones, the last (k = 6) — and this file runs the body once for each, recording which
  stores each buffer ends with. The two conditions are decided over the grid in closed form: k = 0 at the points whose
  number is 0 mod 7, k = 6 at those that are 6 mod 7; the output window is written back exactly at the latter.
-/
import proofs.«151965_j90640989814791_2_alg».proof.Proof.Gen.Kernel.Launch
import proofs.«151965_j90640989814791_2_alg».proof.Proof.Gen.Kernel.Skeleton
import proofs.«151965_j90640989814791_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The body's first condition, k = 0, as it computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 7). -/
theorem hcond1_0 : ∀ t : Fin cfg1.N, cond1_0 (grid1.coords t) ↔ t.val % 7 = 0 :=
  (by decide +kernel : ∀ t : Fin grid1.N, cond1_0 (grid1.coords t) ↔ t.val % 7 = 0)

/-- The body's second condition, k = 6. -/
abbrev cond1_1 (i : grid1.Coords) : Prop := k1_cond2 i = 1#1
/-- It holds at the points ≡ 6 (mod 7). -/
theorem hcond1_1 : ∀ t : Fin cfg1.N, cond1_1 (grid1.coords t) ↔ t.val % 7 = 6 :=
  (by decide +kernel : ∀ t : Fin grid1.N, cond1_1 (grid1.coords t) ↔ t.val % 7 = 6)

/-! ## Where the windows are idle -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where k ≠ 6 the body stores nothing into the output block: the window is idle there, -/
theorem idleAt1_2 : ∀ t : Fin cfg1.N, ¬cond1_1 (grid1.coords t) → cfg1.idle 2 (grid1.coords t) = true := by decide +kernel
/-- and the pipeline does not write the block back there. -/
theorem noFlush1_2 : ∀ t : Fin cfg1.N, ¬cond1_1 (grid1.coords t) → (cfg1.win 2).flush t = false := by decide +kernel
/-- Where k = 6 the body stores the output block: the window is live. -/
theorem liveAt1_2 : ∀ t : Fin cfg1.N, cond1_1 (grid1.coords t) → cfg1.idle 2 (grid1.coords t) = false := by decide +kernel

/-! ## The buffers the body is called on -/

/-- One staging buffer of the output window, through which its contents are stated (the choice does not matter). -/
abbrev VO1_2 : View sig .tc .vmem S1024x1024 .f32 := (Memref.whole cc1_stg2_0 : Memref sig .tc .vmem S1024x1024 .f32).view
/-- Each window's current staging buffer at point `t`, as the pipeline passes it, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The scratch block: a whole scoped buffer of the kernel's own, passed beside the windows. -/
abbrev scM1_0 : Memref sig .tc .vmem S1024x1024 .f32 := Memref.whole cc1_scratch0
/-- The same as a view: what the scratch holds is stated through it. -/
abbrev VS1_0 : View sig .tc .vmem S1024x1024 .f32 := scM1_0.view

/-- The scoped buffers this region never touches (the first region's staging buffers), each at anything. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- What the launch hands the region — every scoped buffer no window stages at anything, and the generator register —
    with the scratch block singled out. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

theorem PhiA1_split (c : Dev nD) :
    (Pipeline.ΦA spec1 c : sProp 𝕄) ⊢ iprop(iprop(otherScoped c ∗ (∃ d, owns (c : Thread nD τ) scM1_0 fullShare d)) ∗ (∃ r, prngReg c r)) := by
  rw [PhiA1_eq]; unfold otherScoped
  iintro ⟨⟨H1, H2, H3, H4, H5, H6, H7, H8, HS⟩, Hg⟩
  isplitr [Hg]
  · isplitr [HS]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact HS
  iexact Hg

theorem PhiA1_join (c : Dev nD) :
    iprop(iprop(otherScoped c ∗ (∃ d, owns (c : Thread nD τ) scM1_0 fullShare d)) ∗ (∃ r, prngReg c r)) ⊢ (Pipeline.ΦA spec1 c : sProp 𝕄) := by
  rw [PhiA1_eq]; unfold otherScoped
  iintro ⟨⟨⟨H1, H2, H3, H4, H5, H6, H7, H8⟩, HS⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

/-! ## The body, run once per kind of point -/

set_option maxHeartbeats 1000000 in
/-- The first point of a run of seven (k = 0, so not k = 6): on whole buffers — the two inputs at their contents, the
    output block at contents handed back untouched, the scratch at anything — the body runs to the end holding the
    inputs and the output block as they were and the scratch with the recorded stores written. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__gemm2_kernel i arg3 harg3 arg4 harg4 arg5 harg5 arg6 harg6) K } := by
  refine ⟨[], ?_, fun xi2 E K => ?run⟩
  case run =>
    simp only [cc1__gemm2_kernel_eq_skeleton]; unfold cc1__gemm2_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- A middle point (neither k = 0 nor k = 6): the same, the scratch entered at the contents `xs0` the point before left. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__gemm2_kernel i arg3 harg3 arg4 harg4 arg5 harg5 arg6 harg6) K } := by
  refine ⟨[], ?_, fun xi2 E K => ?run⟩
  case run =>
    simp only [cc1__gemm2_kernel_eq_skeleton]; unfold cc1__gemm2_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- The last point of a run of seven (k = 6, so not k = 0): the output block entered at anything and left with its
    recorded stores written, the scratch entered at `xs0`. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__gemm2_kernel i arg3 harg3 arg4 harg4 arg5 harg5 arg6 harg6) K } := by
  refine ⟨?_, ?_, fun E K => ?run⟩
  case run =>
    simp only [cc1__gemm2_kernel_eq_skeleton]; unfold cc1__gemm2_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.BitsDown.lean ====
/-
  The second kernel region as a pipeline with a carried accumulator: what the scratch and the output block hold after
  every point, the invariant that carries the scratch from point to point, and the body obligation.

  Writing S t for the scratch after point t and (i, j, k) for t's coordinates: S t is what the body's stores leave when
  it is entered with the blocks (i, k) and (j, k) and — unless k = 0 — with the scratch at S (t − 1). The output buffer
  after point t is what the body's stores leave in it when k = 6; elsewhere the window is idle and its buffer is not
  consulted. The invariant before point t > 0 holds the scratch at S (t − 1) exactly; before the first point it is what
  the launch hands over, every scratch at anything.
-/
import proofs.«151965_j90640989814791_2_alg».proof.Proof.BitsDownRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation window's staging buffer holds its block at every point, for any proof data whose array is the entry
    contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the weight window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each kind of point leaves in the scratch and in the output block -/

/-- The first point's stores cover the scratch. -/
theorem scover1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 x1 : Vec F S1024x1024 .bf16) (y : S1024x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1024.size (by sl_kernel_rfl) y

/-- What the first point leaves in the scratch. -/
def sout1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 x1 : Vec F S1024x1024 .bf16) : Vec F S1024x1024 .f32 :=
  VS1_0.read (Elt F) (VS1_0.writes (Elt F) VS1_0.junk (kernelRun1_A c i arg3 harg3 arg4 harg4 arg5 harg5 arg6 harg6 hc0 hc1 x0 x1).2.1)

/-- A middle point's stores cover the scratch. -/
theorem scover1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs0 : Vec F S1024x1024 .f32) (y : S1024x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1024.size (by sl_kernel_rfl) y

/-- What a middle point leaves in the scratch. -/
def sout1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 hc0 hc1 x0 x1 xs0).2.1)

/-- The last point's stores cover the output block, -/
theorem cover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x1024.size (by sl_kernel_rfl) y

/-- and the scratch. -/
theorem scover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1024.size (by sl_kernel_rfl) y

/-- What the last point leaves in the output block, -/
def out1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) : Vec F S1024x1024 .f32 :=
  VO1_2.read (Elt F) (VO1_2.writes (Elt F) VO1_2.junk (kernelRun1_C c i arg3 harg3 arg4 harg4 arg5 harg5 arg6 harg6 hc0 hc1 x0 x1 xs0).1)

/-- and in the scratch. -/
def sout1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) : Vec F S1024x1024 .f32 :=
  VS1_0.read (Elt F) (VS1_0.writes (Elt F) VS1_0.junk (kernelRun1_C c i arg3 harg3 arg4 harg4 arg5 harg5 arg6 harg6 hc0 hc1 x0 x1 xs0).2.1)

/-- A value for the output buffer where the window is idle: nothing consults it. -/
def idleOut : Vec F S1024x1024 .f32 := VO1_2.read (Elt F) VO1_2.junk

/-! ## The accumulation, point by point -/

/-- What the output buffer and the scratch hold after the body at position `n` (a pair: output block, scratch): the kind
    of point the closed forms select, run at the point's buffers and input blocks, the scratch entered at what
    position `n − 1` left. No point has both k = 0 and k = 6. -/
def outsAt1 (c : Dev nD) : (n : ℕ) → n < cfg1.N → Vec F S1024x1024 .f32 × Vec F S1024x1024 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 7 = 0 then
      if h1 : (n + 1) % 7 = 6 then
        False.elim (by omega)
      else
        (idleOut, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 7 = 6 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first point of seven. -/
theorem outsAt1_A (c : Dev nD) (t : Fin cfg1.N) (h0 : t.val % 7 = 0) (h1 : ¬t.val % 7 = 6) :
    outsAt1 V c t.val t.isLt = (idleOut, sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a middle point: over what the point before left. -/
theorem outsAt1_B (c : Dev nD) (t : Fin cfg1.N) (h0 : ¬t.val % 7 = 0) (h1 : ¬t.val % 7 = 6) :
    outsAt1 V c t.val t.isLt = (idleOut, sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point of seven: over what the point before left. -/
theorem outsAt1_C (c : Dev nD) (t : Fin cfg1.N) (h0 : ¬t.val % 7 = 0) (h1 : t.val % 7 = 6) :
    outsAt1 V c t.val t.isLt = (out1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- Before position `n`: at the start what the launch hands over; afterwards the untouched scoped buffers at anything,
    the scratch at exactly what the point before left, and the generator register at some state. -/
def PhiS (c : Dev nD) : (n : ℕ) → n ≤ cfg1.N → sProp 𝕄
  | 0, _ => Pipeline.ΦA spec1 c
  | n + 1, hn => iprop(iprop(otherScoped c ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(otherScoped c ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(otherScoped c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data on core `c`: the arrays as the region finds them; after the body at point `t` each input buffer at
    its block and the output buffer at the accumulation's first component; the invariant `PhiS`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the closed forms say which kind of point it is; the
    invariant hands the body the scratch at what the point before left (at anything at the very first point) and takes
    it back at this point's contents; where k ≠ 6 the output buffer is handed back as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 7 = 0
  · have h1 : ¬t.val % 7 = 6 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS_castSucc V c t, PhiS_zero V c _ _ hz]
      refine (sep_mono (PhiA1_split c) .rfl).trans ?_
      iintro ⟨⟨⟨HR, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨⟨HR, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 7 = 6
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS_castSucc V c t, PhiS_pos V c _ _ hz]
      iintro ⟨⟨⟨HR, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS_castSucc V c t, PhiS_pos V c _ _ hz]
      iintro ⟨⟨⟨HR, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives back what the launch handed over: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  refine .trans ?_ (PhiA1_join c)
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 56 := N_1; omega)

end Cert.Kernel.Hand

end
-- ==== Proof.BitsRun.lean ====
/-
  The whole program as three segments — the host prologue, the up-projection region, the down-projection region — and
  its run.

  The core's unscoped buffers are followed through @main as a fold from the launch memory: after the prologue the
  launch memory with every host operation applied; after each region the same, except that the region's arrays hold
  what its pipeline leaves (the inputs as entered, the output with every written-back block in place). Each region
  takes its arrays out of the unscoped buffers at entry and puts them back at exit; between the two it runs under its
  own invariant. The run ends with every unscoped buffer at the last boundary's contents, which is read against the
  final memory.
-/
import proofs.«151965_j90640989814791_2_alg».proof.Proof.BitsUp
import proofs.«151965_j90640989814791_2_alg».proof.Proof.BitsDown

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host prologue: the first region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## A buffer that no host operation writes and no region stages as an output ends as launched -/

/-- No operation of the prologue writes an argument. -/
theorem W1_arg (c : Dev nD) (b : Ref sig .tc) (hb : b ∈ ([main_arg0, main_arg1, main_arg2, main_arg3, main_arg4, main_arg5, main_arg6] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [List.mem_cons, List.mem_nil_iff, or_false] at hb
    rcases hb with rfl | rfl | rfl | rfl | rfl | rfl | rfl
    all_goals
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- An argument array ends as launched: neither region has it among its arrays. -/
theorem W3_arg (c : Dev nD) (b : Ref sig .tc) (hb : b ∈ ([main_arg0, main_arg1, main_arg2, main_arg3, main_arg4, main_arg5, main_arg6] : List (Ref sig .tc))) :
    W3 m ρ c (Proc.devRef .tc b) = m ((c : Thread nD τ).loc b) :=
  calc W3 m ρ c (Proc.devRef .tc b)
    _ = W2 m ρ c (Proc.devRef .tc b) := W3_of_ne m ρ c b (by
          simp only [List.mem_cons, List.mem_nil_iff, or_false] at hb
          rcases hb with rfl | rfl | rfl | rfl | rfl | rfl | rfl <;> decide)
    _ = W1 m ρ c (Proc.devRef .tc b) := W2_of_ne m ρ c b (by
          simp only [List.mem_cons, List.mem_nil_iff, or_false] at hb
          rcases hb with rfl | rfl | rfl | rfl | rfl | rfl | rfl <;> decide)
    _ = W0 m ρ c (Proc.devRef .tc b) := W1_arg m ρ c b hb
    _ = m ((c : Thread nD τ).loc b) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the prologue allocates a buffer. -/
theorem prologue_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The up-projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down-projection region: entered from every unscoped buffer at `W2`, left at `W3`; its invariant starts as
    what the launch hands over and ends giving it back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .host (hseg hostOps0 hostOps0_sub prologue_fresh (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCore terminates,
    nothing faulting, and in every final memory every unscoped buffer holds the last boundary's contents `W3`: whatever
    follows from that of a final memory (`hQ`) holds at the end. -/
theorem run_main {Q : PUnit × MemSt nD τ sig (Elt F) → Prop}
    (hQ : ∀ s : MemSt nD τ sig (Elt F), (∀ c : Dev nD, ∀ b ∈ Pipeline.ucRefs τ sig, s.mem (((c : Thread nD τ)).1, b) = W3 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := hQ)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_main m ρ fun s h c =>
    ⟨(h c _ (mem_uc main_arg0 (by decide))).trans (W3_arg m ρ c main_arg0 (by decide)),
     (h c _ (mem_uc main_arg1 (by decide))).trans (W3_arg m ρ c main_arg1 (by decide)),
     (h c _ (mem_uc main_arg2 (by decide))).trans (W3_arg m ρ c main_arg2 (by decide)),
     (h c _ (mem_uc main_arg3 (by decide))).trans (W3_arg m ρ c main_arg3 (by decide)),
     (h c _ (mem_uc main_arg4 (by decide))).trans (W3_arg m ρ c main_arg4 (by decide)),
     (h c _ (mem_uc main_arg5 (by decide))).trans (W3_arg m ρ c main_arg5 (by decide)),
     (h c _ (mem_uc main_arg6 (by decide))).trans (W3_arg m ρ c main_arg6 (by decide))⟩

end Cert.Kernel.Hand

end
-- ==== Proof.IdealUp.lean ====
/-
  The first kernel region — the two up-projections and the gate — as a pipeline over its grid of 4 × 14 points.

  At a point (i, j) the pipeline hands the body the token block i (1024 rows, all 2048 columns), the blocks j of the two
  scaled weight matrices (512 rows each) and an output block (1024 × 512). The body reads the three inputs whole,
  computes both products over the full contraction axis, the gate, and stores the result over the whole output block;
  it carries nothing from point to point. So after the body every input buffer still holds its block and the output
  buffer holds one function of the three input blocks. This file states that, for any float instance, at a parameter
  `V`: the contents of the core's buffers when the region is entered.
-/
import proofs.«151965_j90640989814791_2_alg».proof.Proof.Gen.KernelIdeal.Launch
import proofs.«151965_j90640989814791_2_alg».proof.Proof.Gen.KernelIdeal.Skeleton
import proofs.«151965_j90640989814791_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The token window's staging buffer holds its block at every point, whether the point fetched it or the block index
    did not move, for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the first weight window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the second weight window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev rX : Rect S1024x2048 := Rect.unit (s := S1024x2048) ![0, 0] S1024x2048.size inb_S1024x2048_S1024x2048_0_0
abbrev rW : Rect S512x2048 := Rect.unit (s := S512x2048) ![0, 0] S512x2048.size inb_S512x2048_S512x2048_0_0
abbrev rH : Rect S1024x512 := Rect.unit (s := S1024x512) ![0, 0] S1024x512.size inb_S1024x512_S1024x512_0_0

/-! ## What the body leaves in the output block -/

/-- The output buffer after the body, from the three input blocks: its one store, of the gated product of the two
    projections, over the whole block. -/
def out0_3 (x0 : Vec F S1024x2048 .bf16) (x1 : Vec F S512x2048 .bf16) (x2 : Vec F S512x2048 .bf16) : Vec F S1024x512 .bf16 :=
  View.canon [⟨rH, k0_pay1 (View.ld x0 rX) (View.ld x1 rW) (View.ld x0 rX) (View.ld x2 rW)⟩]

/-- The one store covers the block. -/
theorem cover0_3 (p0 : Vec F S1024x512 .bf16) (y : S1024x512.Idx) :
    ∃ pc ∈ ([⟨rH, p0⟩] : List (View.Piece (Elt F) S1024x512 .bf16)), y ∈ pc.1.set :=
  View.cover_of_tiled [⟨rH, p0⟩] S1024x512.size (by rfl) y

/-! ## The body's triple -/

set_option maxHeartbeats 1000000 in
/-- The body on whole staging buffers — the inputs at contents `x0`, `x1`, `x2`, the output at anything — runs to the
    end, faults nowhere, leaves the inputs as they were and the output at `out0_3` of them. -/
theorem sound_kernel0 (c : Dev nD) (E : Set ℕ) (i : grid0.Coords)
    (arg2 : Memref sig .tc .vmem S1024x2048 .bf16) (harg2 : arg2.IsWhole) (arg3 : Memref sig .tc .vmem S512x2048 .bf16) (harg3 : arg3.IsWhole)
    (arg4 : Memref sig .tc .vmem S512x2048 .bf16) (harg4 : arg4.IsWhole) (arg5 : Memref sig .tc .vmem S1024x512 .bf16) (harg5 : arg5.IsWhole)
    (x0 : Vec F S1024x2048 .bf16) (x1 : Vec F S512x2048 .bf16) (x2 : Vec F S512x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__gemm13_act_kernel i arg2 harg2 arg3 harg3 arg4 harg4 arg5 harg5) K := by
  simp only [cc0__gemm13_act_kernel_eq_skeleton]; unfold cc0__gemm13_act_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data on core `c`: the arrays as the region finds them; after the body at point `t` each input buffer at
    its block and the output buffer at `out0_3` of the three blocks; the invariant the untouched scoped rest and the
    generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealDownRuns.lean ====
/-
  The second kernel region — the down-projection, accumulated over the hidden axis — one body run per case.

  Its grid has 4 × 2 × 7 points (i, j, k). At a point the body gets block (i, k) of the hidden activations, block (j, k) of
  the scaled down-projection weights (1024 × 1024 each), the output block (i, j) and one scratch block that outlives the
  point. If k = 0 it first stores zeros over the scratch; it then stores scratch + (activations · weightsᵀ) over the
  scratch; if k = 6 it finally copies the scratch over the output block. So there are three kinds of point — the first
  of a run of seven (k = 0), the middle ones, the last (k = 6) — and this file runs the body once for each, recording which
  stores each buffer ends with. The two conditions are decided over the grid in closed form: k = 0 at the points whose
  number is 0 mod 7, k = 6 at those that are 6 mod 7; the output window is written back exactly at the latter.
-/
import proofs.«151965_j90640989814791_2_alg».proof.Proof.Gen.KernelIdeal.Launch
import proofs.«151965_j90640989814791_2_alg».proof.Proof.Gen.KernelIdeal.Skeleton
import proofs.«151965_j90640989814791_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The body's first condition, k = 0, as it computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 7). -/
theorem hcond1_0 : ∀ t : Fin cfg1.N, cond1_0 (grid1.coords t) ↔ t.val % 7 = 0 :=
  (by decide +kernel : ∀ t : Fin grid1.N, cond1_0 (grid1.coords t) ↔ t.val % 7 = 0)

/-- The body's second condition, k = 6. -/
abbrev cond1_1 (i : grid1.Coords) : Prop := k1_cond2 i = 1#1
/-- It holds at the points ≡ 6 (mod 7). -/
theorem hcond1_1 : ∀ t : Fin cfg1.N, cond1_1 (grid1.coords t) ↔ t.val % 7 = 6 :=
  (by decide +kernel : ∀ t : Fin grid1.N, cond1_1 (grid1.coords t) ↔ t.val % 7 = 6)

/-! ## Where the windows are idle -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where k ≠ 6 the body stores nothing into the output block: the window is idle there, -/
theorem idleAt1_2 : ∀ t : Fin cfg1.N, ¬cond1_1 (grid1.coords t) → cfg1.idle 2 (grid1.coords t) = true := by decide +kernel
/-- and the pipeline does not write the block back there. -/
theorem noFlush1_2 : ∀ t : Fin cfg1.N, ¬cond1_1 (grid1.coords t) → (cfg1.win 2).flush t = false := by decide +kernel
/-- Where k = 6 the body stores the output block: the window is live. -/
theorem liveAt1_2 : ∀ t : Fin cfg1.N, cond1_1 (grid1.coords t) → cfg1.idle 2 (grid1.coords t) = false := by decide +kernel

/-! ## The buffers the body is called on -/

/-- One staging buffer of the output window, through which its contents are stated (the choice does not matter). -/
abbrev VO1_2 : View sig .tc .vmem S1024x1024 .f32 := (Memref.whole cc1_stg2_0 : Memref sig .tc .vmem S1024x1024 .f32).view
/-- Each window's current staging buffer at point `t`, as the pipeline passes it, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The scratch block: a whole scoped buffer of the kernel's own, passed beside the windows. -/
abbrev scM1_0 : Memref sig .tc .vmem S1024x1024 .f32 := Memref.whole cc1_scratch0
/-- The same as a view: what the scratch holds is stated through it. -/
abbrev VS1_0 : View sig .tc .vmem S1024x1024 .f32 := scM1_0.view

/-- The scoped buffers this region never touches (the first region's staging buffers), each at anything. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- What the launch hands the region — every scoped buffer no window stages at anything, and the generator register —
    with the scratch block singled out. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

theorem PhiA1_split (c : Dev nD) :
    (Pipeline.ΦA spec1 c : sProp 𝕄) ⊢ iprop(iprop(otherScoped c ∗ (∃ d, owns (c : Thread nD τ) scM1_0 fullShare d)) ∗ (∃ r, prngReg c r)) := by
  rw [PhiA1_eq]; unfold otherScoped
  iintro ⟨⟨H1, H2, H3, H4, H5, H6, H7, H8, HS⟩, Hg⟩
  isplitr [Hg]
  · isplitr [HS]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact HS
  iexact Hg

theorem PhiA1_join (c : Dev nD) :
    iprop(iprop(otherScoped c ∗ (∃ d, owns (c : Thread nD τ) scM1_0 fullShare d)) ∗ (∃ r, prngReg c r)) ⊢ (Pipeline.ΦA spec1 c : sProp 𝕄) := by
  rw [PhiA1_eq]; unfold otherScoped
  iintro ⟨⟨⟨H1, H2, H3, H4, H5, H6, H7, H8⟩, HS⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

/-! ## The body, run once per kind of point -/

set_option maxHeartbeats 1000000 in
/-- The first point of a run of seven (k = 0, so not k = 6): on whole buffers — the two inputs at their contents, the
    output block at contents handed back untouched, the scratch at anything — the body runs to the end holding the
    inputs and the output block as they were and the scratch with the recorded stores written. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__gemm2_kernel i arg3 harg3 arg4 harg4 arg5 harg5 arg6 harg6) K } := by
  refine ⟨[], ?_, fun xi2 E K => ?run⟩
  case run =>
    simp only [cc1__gemm2_kernel_eq_skeleton]; unfold cc1__gemm2_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- A middle point (neither k = 0 nor k = 6): the same, the scratch entered at the contents `xs0` the point before left. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__gemm2_kernel i arg3 harg3 arg4 harg4 arg5 harg5 arg6 harg6) K } := by
  refine ⟨[], ?_, fun xi2 E K => ?run⟩
  case run =>
    simp only [cc1__gemm2_kernel_eq_skeleton]; unfold cc1__gemm2_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- The last point of a run of seven (k = 6, so not k = 0): the output block entered at anything and left with its
    recorded stores written, the scratch entered at `xs0`. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__gemm2_kernel i arg3 harg3 arg4 harg4 arg5 harg5 arg6 harg6) K } := by
  refine ⟨?_, ?_, fun E K => ?run⟩
  case run =>
    simp only [cc1__gemm2_kernel_eq_skeleton]; unfold cc1__gemm2_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.IdealDown.lean ====
/-
  The second kernel region as a pipeline with a carried accumulator: what the scratch and the output block hold after
  every point, the invariant that carries the scratch from point to point, and the body obligation.

  Writing S t for the scratch after point t and (i, j, k) for t's coordinates: S t is what the body's stores leave when
  it is entered with the blocks (i, k) and (j, k) and — unless k = 0 — with the scratch at S (t − 1). The output buffer
  after point t is what the body's stores leave in it when k = 6; elsewhere the window is idle and its buffer is not
  consulted. The invariant before point t > 0 holds the scratch at S (t − 1) exactly; before the first point it is what
  the launch hands over, every scratch at anything.
-/
import proofs.«151965_j90640989814791_2_alg».proof.Proof.IdealDownRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation window's staging buffer holds its block at every point, for any proof data whose array is the entry
    contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the weight window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each kind of point leaves in the scratch and in the output block -/

/-- The first point's stores cover the scratch. -/
theorem scover1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 x1 : Vec F S1024x1024 .bf16) (y : S1024x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1024.size (by sl_kernel_rfl) y

/-- What the first point leaves in the scratch. -/
def sout1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 x1 : Vec F S1024x1024 .bf16) : Vec F S1024x1024 .f32 :=
  VS1_0.read (Elt F) (VS1_0.writes (Elt F) VS1_0.junk (kernelRun1_A c i arg3 harg3 arg4 harg4 arg5 harg5 arg6 harg6 hc0 hc1 x0 x1).2.1)

/-- A middle point's stores cover the scratch. -/
theorem scover1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs0 : Vec F S1024x1024 .f32) (y : S1024x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1024.size (by sl_kernel_rfl) y

/-- What a middle point leaves in the scratch. -/
def sout1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 hc0 hc1 x0 x1 xs0).2.1)

/-- The last point's stores cover the output block, -/
theorem cover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x1024.size (by sl_kernel_rfl) y

/-- and the scratch. -/
theorem scover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1024.size (by sl_kernel_rfl) y

/-- What the last point leaves in the output block, -/
def out1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) : Vec F S1024x1024 .f32 :=
  VO1_2.read (Elt F) (VO1_2.writes (Elt F) VO1_2.junk (kernelRun1_C c i arg3 harg3 arg4 harg4 arg5 harg5 arg6 harg6 hc0 hc1 x0 x1 xs0).1)

/-- and in the scratch. -/
def sout1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) : Vec F S1024x1024 .f32 :=
  VS1_0.read (Elt F) (VS1_0.writes (Elt F) VS1_0.junk (kernelRun1_C c i arg3 harg3 arg4 harg4 arg5 harg5 arg6 harg6 hc0 hc1 x0 x1 xs0).2.1)

/-- A value for the output buffer where the window is idle: nothing consults it. -/
def idleOut : Vec F S1024x1024 .f32 := VO1_2.read (Elt F) VO1_2.junk

/-! ## The accumulation, point by point -/

/-- What the output buffer and the scratch hold after the body at position `n` (a pair: output block, scratch): the kind
    of point the closed forms select, run at the point's buffers and input blocks, the scratch entered at what
    position `n − 1` left. No point has both k = 0 and k = 6. -/
def outsAt1 (c : Dev nD) : (n : ℕ) → n < cfg1.N → Vec F S1024x1024 .f32 × Vec F S1024x1024 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 7 = 0 then
      if h1 : (n + 1) % 7 = 6 then
        False.elim (by omega)
      else
        (idleOut, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 7 = 6 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first point of seven. -/
theorem outsAt1_A (c : Dev nD) (t : Fin cfg1.N) (h0 : t.val % 7 = 0) (h1 : ¬t.val % 7 = 6) :
    outsAt1 V c t.val t.isLt = (idleOut, sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a middle point: over what the point before left. -/
theorem outsAt1_B (c : Dev nD) (t : Fin cfg1.N) (h0 : ¬t.val % 7 = 0) (h1 : ¬t.val % 7 = 6) :
    outsAt1 V c t.val t.isLt = (idleOut, sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point of seven: over what the point before left. -/
theorem outsAt1_C (c : Dev nD) (t : Fin cfg1.N) (h0 : ¬t.val % 7 = 0) (h1 : t.val % 7 = 6) :
    outsAt1 V c t.val t.isLt = (out1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- Before position `n`: at the start what the launch hands over; afterwards the untouched scoped buffers at anything,
    the scratch at exactly what the point before left, and the generator register at some state. -/
def PhiS (c : Dev nD) : (n : ℕ) → n ≤ cfg1.N → sProp 𝕄
  | 0, _ => Pipeline.ΦA spec1 c
  | n + 1, hn => iprop(iprop(otherScoped c ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(otherScoped c ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(otherScoped c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data on core `c`: the arrays as the region finds them; after the body at point `t` each input buffer at
    its block and the output buffer at the accumulation's first component; the invariant `PhiS`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the closed forms say which kind of point it is; the
    invariant hands the body the scratch at what the point before left (at anything at the very first point) and takes
    it back at this point's contents; where k ≠ 6 the output buffer is handed back as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 7 = 0
  · have h1 : ¬t.val % 7 = 6 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS_castSucc V c t, PhiS_zero V c _ _ hz]
      refine (sep_mono (PhiA1_split c) .rfl).trans ?_
      iintro ⟨⟨⟨HR, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨⟨HR, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 7 = 6
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS_castSucc V c t, PhiS_pos V c _ _ hz]
      iintro ⟨⟨⟨HR, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS_castSucc V c t, PhiS_pos V c _ _ hz]
      iintro ⟨⟨⟨HR, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives back what the launch handed over: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  refine .trans ?_ (PhiA1_join c)
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 56 := N_1; omega)

end Cert.KernelIdeal.Hand

end
-- ==== Proof.IdealRun.lean ====
/-
  The whole program as three segments — the host prologue, the up-projection region, the down-projection region — and
  its run.

  The core's unscoped buffers are followed through @main as a fold from the launch memory: after the prologue the
  launch memory with every host operation applied; after each region the same, except that the region's arrays hold
  what its pipeline leaves (the inputs as entered, the output with every written-back block in place). Each region
  takes its arrays out of the unscoped buffers at entry and puts them back at exit; between the two it runs under its
  own invariant. The run ends with every unscoped buffer at the last boundary's contents, which is read against the
  final memory.
-/
import proofs.«151965_j90640989814791_2_alg».proof.Proof.IdealUp
import proofs.«151965_j90640989814791_2_alg».proof.Proof.IdealDown

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host prologue: the first region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## A buffer that no host operation writes and no region stages as an output ends as launched -/

/-- No operation of the prologue writes an argument. -/
theorem W1_arg (c : Dev nD) (b : Ref sig .tc) (hb : b ∈ ([main_arg0, main_arg1, main_arg2, main_arg3, main_arg4, main_arg5, main_arg6] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [List.mem_cons, List.mem_nil_iff, or_false] at hb
    rcases hb with rfl | rfl | rfl | rfl | rfl | rfl | rfl
    all_goals
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- An argument array ends as launched: neither region has it among its arrays. -/
theorem W3_arg (c : Dev nD) (b : Ref sig .tc) (hb : b ∈ ([main_arg0, main_arg1, main_arg2, main_arg3, main_arg4, main_arg5, main_arg6] : List (Ref sig .tc))) :
    W3 m ρ c (Proc.devRef .tc b) = m ((c : Thread nD τ).loc b) :=
  calc W3 m ρ c (Proc.devRef .tc b)
    _ = W2 m ρ c (Proc.devRef .tc b) := W3_of_ne m ρ c b (by
          simp only [List.mem_cons, List.mem_nil_iff, or_false] at hb
          rcases hb with rfl | rfl | rfl | rfl | rfl | rfl | rfl <;> decide)
    _ = W1 m ρ c (Proc.devRef .tc b) := W2_of_ne m ρ c b (by
          simp only [List.mem_cons, List.mem_nil_iff, or_false] at hb
          rcases hb with rfl | rfl | rfl | rfl | rfl | rfl | rfl <;> decide)
    _ = W0 m ρ c (Proc.devRef .tc b) := W1_arg m ρ c b hb
    _ = m ((c : Thread nD τ).loc b) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the prologue allocates a buffer. -/
theorem prologue_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The up-projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down-projection region: entered from every unscoped buffer at `W2`, left at `W3`; its invariant starts as
    what the launch hands over and ends giving it back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .host (hseg hostOps0 hostOps0_sub prologue_fresh (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCore terminates,
    nothing faulting, and in every final memory every unscoped buffer holds the last boundary's contents `W3`: whatever
    follows from that of a final memory (`hQ`) holds at the end. -/
theorem run_main {Q : PUnit × MemSt nD τ sig (Elt F) → Prop}
    (hQ : ∀ s : MemSt nD τ sig (Elt F), (∀ c : Dev nD, ∀ b ∈ Pipeline.ucRefs τ sig, s.mem (((c : Thread nD τ)).1, b) = W3 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := hQ)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_main m ρ fun s h c =>
    ⟨(h c _ (mem_uc main_arg0 (by decide))).trans (W3_arg m ρ c main_arg0 (by decide)),
     (h c _ (mem_uc main_arg1 (by decide))).trans (W3_arg m ρ c main_arg1 (by decide)),
     (h c _ (mem_uc main_arg2 (by decide))).trans (W3_arg m ρ c main_arg2 (by decide)),
     (h c _ (mem_uc main_arg3 (by decide))).trans (W3_arg m ρ c main_arg3 (by decide)),
     (h c _ (mem_uc main_arg4 (by decide))).trans (W3_arg m ρ c main_arg4 (by decide)),
     (h c _ (mem_uc main_arg5 (by decide))).trans (W3_arg m ρ c main_arg5 (by decide)),
     (h c _ (mem_uc main_arg6 (by decide))).trans (W3_arg m ρ c main_arg6 (by decide))⟩

end Cert.KernelIdeal.Hand

end
-- ==== Proof.Payload.lean ====
/-
  The kernel bodies' arithmetic, read at one index, on the extended reals.

  The first body multiplies a [1024, 2048] block by two [512, 2048] blocks, each product contracting the last axes
  into a zero accumulator: with g (p, q) = Σ_k a (p, k) · b (q, k) and u (p, q) = Σ_k a' (p, k) · b' (q, k), it stores
  (g · σ g) · u, σ the logistic function; the final change of format is the identity on the extended reals.
  The second body either stores the zero splat, or adds to an accumulator the product of two [1024, 1024] blocks
  contracting the last axes: acc (p, q) + Σ_k a (p, k) · b (q, k).
-/
import proofs.«151965_j90640989814791_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-! ## The operand indices of the two contractions -/

/-- The left operand's row coordinate at an output index is the output's row. -/
theorem lhs_up_0 (i : S1024x512.Idx) (c : dot_S1024x2048_S512x2048_S1024x512_1_1_0_0_n_n.contr.Idx) :
    (dot_S1024x2048_S512x2048_S1024x512_1_1_0_0_n_n.lhsIdx i c 0).val = (i 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
/-- Its column coordinate is the contraction coordinate. -/
theorem lhs_up_1 (i : S1024x512.Idx) (c : dot_S1024x2048_S512x2048_S1024x512_1_1_0_0_n_n.contr.Idx) :
    (dot_S1024x2048_S512x2048_S1024x512_1_1_0_0_n_n.lhsIdx i c 1).val = (c ⟨0, by decide⟩).val :=
  dot_S1024x2048_S512x2048_S1024x512_1_1_0_0_n_n.lhsIdx_val_of_single rfl i c
/-- The right operand's row coordinate at an output index is the output's column. -/
theorem rhs_up_0 (i : S1024x512.Idx) (c : dot_S1024x2048_S512x2048_S1024x512_1_1_0_0_n_n.contr.Idx) :
    (dot_S1024x2048_S512x2048_S1024x512_1_1_0_0_n_n.rhsIdx i c 0).val = (i 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl
/-- Its column coordinate is the contraction coordinate. -/
theorem rhs_up_1 (i : S1024x512.Idx) (c : dot_S1024x2048_S512x2048_S1024x512_1_1_0_0_n_n.contr.Idx) :
    (dot_S1024x2048_S512x2048_S1024x512_1_1_0_0_n_n.rhsIdx i c 1).val = (c ⟨0, by decide⟩).val :=
  dot_S1024x2048_S512x2048_S1024x512_1_1_0_0_n_n.rhsIdx_val_of_single rfl i c

/-- The left operand's row coordinate at an output index is the output's row. -/
theorem lhs_down_0 (i : S1024x1024.Idx) (c : dot_S1024x1024_S1024x1024_S1024x1024_1_1_0_0_n_n.contr.Idx) :
    (dot_S1024x1024_S1024x1024_S1024x1024_1_1_0_0_n_n.lhsIdx i c 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- Its column coordinate is the contraction coordinate. -/
theorem lhs_down_1 (i : S1024x1024.Idx) (c : dot_S1024x1024_S1024x1024_S1024x1024_1_1_0_0_n_n.contr.Idx) :
    (dot_S1024x1024_S1024x1024_S1024x1024_1_1_0_0_n_n.lhsIdx i c 1).val = (c ⟨0, by decide⟩).val :=
  dot_S1024x1024_S1024x1024_S1024x1024_1_1_0_0_n_n.lhsIdx_val_of_single rfl i c
/-- The right operand's row coordinate at an output index is the output's column. -/
theorem rhs_down_0 (i : S1024x1024.Idx) (c : dot_S1024x1024_S1024x1024_S1024x1024_1_1_0_0_n_n.contr.Idx) :
    (dot_S1024x1024_S1024x1024_S1024x1024_1_1_0_0_n_n.rhsIdx i c 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- Its column coordinate is the contraction coordinate. -/
theorem rhs_down_1 (i : S1024x1024.Idx) (c : dot_S1024x1024_S1024x1024_S1024x1024_1_1_0_0_n_n.contr.Idx) :
    (dot_S1024x1024_S1024x1024_S1024x1024_1_1_0_0_n_n.rhsIdx i c 1).val = (c ⟨0, by decide⟩).val :=
  dot_S1024x1024_S1024x1024_S1024x1024_1_1_0_0_n_n.rhsIdx_val_of_single rfl i c

/-! ## The two products into a zero accumulator, at an index -/

/-- A [1024, 2048] block times a [512, 2048] block, contracting the last axes, into the zero splat: at (p, q) the sum
    over k of a (p, k) · b (q, k). -/
theorem matmul_up (a : FVec Ideal S1024x2048 .bf16) (b : FVec Ideal S512x2048 .bf16) (p : Fin 1024) (q : Fin 512) :
    matmul dot_S1024x2048_S512x2048_S1024x512_1_1_0_0_n_n none a b (constant (F := Ideal) S1024x512 .f32 0x00000000#32) (ix2 p q)
      = ∑ k : Fin 2048, a (ix2 p k) * b (ix2 q k) := by
  refine (Ideal.matmul_constant_zero_apply dot_S1024x2048_S512x2048_S1024x512_1_1_0_0_n_n none a b (ix2 p q)).trans ?_
  rw [← Equiv.sum_comp (contrEquiv1 dot_S1024x2048_S512x2048_S1024x512_1_1_0_0_n_n 2048 rfl rfl).symm]
  refine Finset.sum_congr rfl fun k _ => ?_
  have hk := contrEquiv1_symm_val dot_S1024x2048_S512x2048_S1024x512_1_1_0_0_n_n 2048 rfl rfl k
  have el : dot_S1024x2048_S512x2048_S1024x512_1_1_0_0_n_n.lhsIdx (ix2 p q) ((contrEquiv1 dot_S1024x2048_S512x2048_S1024x512_1_1_0_0_n_n 2048 rfl rfl).symm k) = ix2 p k := funext fun d => Fin.ext (by
    match d with
    | ⟨0, _⟩ => exact lhs_up_0 _ _
    | ⟨1, _⟩ => exact (lhs_up_1 _ _).trans hk)
  have er : dot_S1024x2048_S512x2048_S1024x512_1_1_0_0_n_n.rhsIdx (ix2 p q) ((contrEquiv1 dot_S1024x2048_S512x2048_S1024x512_1_1_0_0_n_n 2048 rfl rfl).symm k) = ix2 q k := funext fun d => Fin.ext (by
    match d with
    | ⟨0, _⟩ => exact rhs_up_0 _ _
    | ⟨1, _⟩ => exact (rhs_up_1 _ _).trans hk)
  rw [el, er]

/-- Two [1024, 1024] blocks, contracting the last axes, into the zero splat: at (p, q) the sum over k of
    a (p, k) · b (q, k). -/
theorem matmul_down (a b : FVec Ideal S1024x1024 .bf16) (p q : Fin 1024) :
    matmul dot_S1024x1024_S1024x1024_S1024x1024_1_1_0_0_n_n none a b (constant (F := Ideal) S1024x1024 .f32 0x00000000#32) (ix2 p q)
      = ∑ k : Fin 1024, a (ix2 p k) * b (ix2 q k) := by
  refine (Ideal.matmul_constant_zero_apply dot_S1024x1024_S1024x1024_S1024x1024_1_1_0_0_n_n none a b (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun d => Fin.ext (by
    match d with
    | ⟨0, _⟩ => exact lhs_down_0 _ _
    | ⟨1, _⟩ => exact (lhs_down_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun d => Fin.ext (by
    match d with
    | ⟨0, _⟩ => exact rhs_down_0 _ _
    | ⟨1, _⟩ => exact (rhs_down_1 _ _).trans hk)
  rw [el, er]

/-! ## The three payloads at an index -/

/-- The first body's stored value at (p, q): (g · σ g) · u of the two contractions over the shared last axis. -/
theorem pay_hidden (v0 v5 : Vec Ideal S1024x2048 .bf16) (v2 v7 : Vec Ideal S512x2048 .bf16) (p : Fin 1024) (q : Fin 512) :
    k0_pay1 (F := Ideal) v0 v2 v5 v7 (ix2 p q)
      = ((∑ k : Fin 2048, v0 (ix2 p k) * v2 (ix2 q k)) * Ideal.logistic (∑ k : Fin 2048, v0 (ix2 p k) * v2 (ix2 q k)))
          * (∑ k : Fin 2048, v5 (ix2 p k) * v7 (ix2 q k)) := by
  have h1 := matmul_up v0 v2 p q
  have h2 := matmul_up v5 v7 p q
  unfold k0_pay1
  simp only [shapeCast_self]
  show (matmul dot_S1024x2048_S512x2048_S1024x512_1_1_0_0_n_n none v0 v2 (constant (F := Ideal) S1024x512 .f32 0x00000000#32) (ix2 p q)
      * Ideal.logistic (matmul dot_S1024x2048_S512x2048_S1024x512_1_1_0_0_n_n none v0 v2 (constant (F := Ideal) S1024x512 .f32 0x00000000#32) (ix2 p q)))
      * matmul dot_S1024x2048_S512x2048_S1024x512_1_1_0_0_n_n none v5 v7 (constant (F := Ideal) S1024x512 .f32 0x00000000#32) (ix2 p q) = _
  rw [h1, h2]

/-- The second body's first store is the zero splat. -/
theorem pay_zero (j : S1024x1024.Idx) : k1_pay1 (F := Ideal) j = 0 := by
  unfold k1_pay1
  simp only [shapeCast_self]
  exact Ideal.ofBits_zero_f32

/-- The second body's accumulation at (p, q): the accumulator plus the contraction over the shared last axis. -/
theorem pay_acc (v3 : Vec Ideal S1024x1024 .f32) (v4 v6 : Vec Ideal S1024x1024 .bf16) (p q : Fin 1024) :
    k1_pay2 (F := Ideal) v3 v4 v6 (ix2 p q) = v3 (ix2 p q) + ∑ k : Fin 1024, v4 (ix2 p k) * v6 (ix2 q k) := by
  have h1 := matmul_down v4 v6 p q
  unfold k1_pay2
  simp only [shapeCast_self]
  show v3 (ix2 p q) + matmul dot_S1024x1024_S1024x1024_S1024x1024_1_1_0_0_n_n none v4 v6 (constant (F := Ideal) S1024x1024 .f32 0x00000000#32) (ix2 p q) = _
  rw [h1]

end Cert.KernelIdeal.Payload

end
-- ==== Proof.Spec.lean ====
/-
  The function both programs compute, index by index, on the extended reals.

  A token matrix x : [4096, 2048] goes through a gated feed-forward layer whose three weight matrices are stored
  as block-scaled pairs: an entry matrix and one scale per 128 × 128 block. With

    w1 (f, k) = w1q (f, k) · w1s (f / 128, k / 128)        (and likewise w3, w2)
    g  (t, f) = Σ_k x (t, k) · w1 (f, k)                    u (t, f) = Σ_k x (t, k) · w3 (f, k)
    h  (t, f) = (g (t, f) · σ (g (t, f))) · u (t, f)         σ z = 1 / (1 + e^(−z))
    out (t, n) = Σ_f h (t, f) · w2 (n, f)

  the result is `out`. Sums are finite sums in the commutative monoid of extended reals, so neither their order
  nor their grouping matters; nothing here needs an entry to be finite.
-/
import Idealize.ShloMosaic.PureOps.Ideal
import Idealize.ShloMosaic.Lib.ValueIdx

noncomputable section

namespace Cert.GatedFfn

open Idealize.ShloMosaic Idealize.ShloMosaic.ValueIdx

/-- Tokens by model width. -/
abbrev SX : Shape := ⟨2, ![4096, 2048]⟩
/-- Hidden width by model width: the two up-projections' entries. -/
abbrev SW : Shape := ⟨2, ![7168, 2048]⟩
/-- Their scales, one per 128 × 128 block. -/
abbrev SWs : Shape := ⟨2, ![56, 16]⟩
/-- Model width by hidden width: the down-projection's entries. -/
abbrev SD : Shape := ⟨2, ![2048, 7168]⟩
/-- Its scales. -/
abbrev SDs : Shape := ⟨2, ![16, 56]⟩
/-- Tokens by hidden width. -/
abbrev SH : Shape := ⟨2, ![4096, 7168]⟩

/-- The 128-block a coordinate lies in. -/
def blk {n : Nat} (b : Nat) (a : Fin n) (h : n = b * 128) : Fin b := ⟨a.val / 128, by have := a.isLt; omega⟩

@[simp] theorem blk_val {n : Nat} (b : Nat) (a : Fin n) (h : n = b * 128) : (blk b a h).val = a.val / 128 := rfl

/-- An up-projection weight with its block's scale applied. -/
def scaledW (wq : SW.Idx → EReal) (ws : SWs.Idx → EReal) : SW.Idx → EReal :=
  fun i => wq i * ws (ix2 (blk 56 (i 0) rfl) (blk 16 (i 1) rfl))

/-- The down-projection weight with its block's scale applied. -/
def scaledD (wq : SD.Idx → EReal) (ws : SDs.Idx → EReal) : SD.Idx → EReal :=
  fun i => wq i * ws (ix2 (blk 16 (i 0) rfl) (blk 56 (i 1) rfl))

/-- x · wᵀ: the contraction over the shared model-width axis. -/
def proj (x : SX.Idx → EReal) (w : SW.Idx → EReal) : SH.Idx → EReal :=
  fun j => ∑ k : Fin 2048, x (ix2 (j 0) k) * w (ix2 (j 1) k)

/-- The gated hidden activation (g · σ g) · u. -/
def hidden (x : SX.Idx → EReal) (w1 w3 : SW.Idx → EReal) : SH.Idx → EReal :=
  fun j => (proj x w1 j * Ideal.logistic (proj x w1 j)) * proj x w3 j

/-- h · w2ᵀ: the contraction over the hidden axis. -/
def contract (h : SH.Idx → EReal) (w2 : SD.Idx → EReal) : SX.Idx → EReal :=
  fun i => ∑ f : Fin 7168, h (ix2 (i 0) f) * w2 (ix2 (i 1) f)

/-- The layer's output as one function of the seven argument arrays. -/
def out (x : SX.Idx → EReal) (w1q : SW.Idx → EReal) (w1s : SWs.Idx → EReal) (w3q : SW.Idx → EReal) (w3s : SWs.Idx → EReal)
    (w2q : SD.Idx → EReal) (w2s : SDs.Idx → EReal) : SX.Idx → EReal :=
  contract (hidden x (scaledW w1q w1s) (scaledW w3q w3s)) (scaledD w2q w2s)

end Cert.GatedFfn

end
-- ==== Proof.IdealUpValue.lean ====
/-
  The first region's value: from the blocks the pipeline writes back to the whole array.

  The grid has 4 × 14 points; the point number t stands for the pair (t / 14, t % 14). At the point (i, j) the body
  reads rows 1024·i … 1024·i + 1023 of the token matrix and rows 512·j … 512·j + 511 of each of the two weight
  matrices, all 2048 columns, and the pipeline writes what the body leaves into rows 1024·i … and columns 512·j … of
  the [4096, 7168] result. What the body leaves at (p, q) of its block is (g · σ g) · u for the two contractions of
  row p of the token block with row q of each weight block, so the block written back at point t is the block of the
  one function `hidden` of the three whole arrays; the 56 blocks tile the result, so the result ends holding `hidden`.
-/
import proofs.«151965_j90640989814791_2_alg».proof.Proof.IdealUp
import proofs.«151965_j90640989814791_2_alg».proof.Proof.Payload
import proofs.«151965_j90640989814791_2_alg».proof.Proof.Spec
import Idealize.ShloMosaic.Lib.Pipeline.Value
import Idealize.ShloMosaic.Lib.ValueIdx

noncomputable section

namespace Cert.KernelIdeal.UpValue

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a whole-buffer rectangle. -/
theorem off_zero : (![0, 0] : Fin 2 → Nat) = fun _ => 0 := funext fun a => by fin_cases a <;> rfl

/-! ## The printed index maps over the grid -/

/-- Point t is the pair (t / 14, t % 14): the token window sits at block row t / 14, the weight windows at block row
    t % 14, the result window at block (t / 14, t % 14); the input windows take all columns. -/
theorem index_facts : ∀ t : Fin cfg0.N,
    win0_0.index t (0 : Fin 2) = t.val / 14 ∧ win0_0.index t (1 : Fin 2) = 0
    ∧ win0_1.index t (0 : Fin 2) = t.val % 14 ∧ win0_1.index t (1 : Fin 2) = 0
    ∧ win0_2.index t (0 : Fin 2) = t.val % 14 ∧ win0_2.index t (1 : Fin 2) = 0
    ∧ win0_3.index t (0 : Fin 2) = t.val / 14 ∧ win0_3.index t (1 : Fin 2) = t.val % 14 :=
  (by decide +kernel : ∀ t : Fin grid0.N, _)

/-! ## What the body leaves in the output block, at an index -/

/-- The output block at (p, q): the gated product of the two contractions of row p of the token block with row q of
    each weight block. -/
theorem out_apply (x0 : Vec Ideal S1024x2048 .bf16) (x1 x2 : Vec Ideal S512x2048 .bf16) (p : Fin 1024) (q : Fin 512) :
    Hand.out0_3 (F := Ideal) x0 x1 x2 (ix2 p q)
      = ((∑ k : Fin 2048, x0 (ix2 p k) * x1 (ix2 q k)) * Ideal.logistic (∑ k : Fin 2048, x0 (ix2 p k) * x1 (ix2 q k)))
          * (∑ k : Fin 2048, x0 (ix2 p k) * x2 (ix2 q k)) := by
  unfold Hand.out0_3
  rw [View.canon_unit_zero off_zero]
  simp only [View.ld_unit_zero (S := S1024x2048) off_zero, View.ld_unit_zero (S := S512x2048) off_zero]
  exact Payload.pay_hidden x0 x0 x1 x2 p q

/-! ## The input blocks as rows of their arrays -/

section Blocks
variable (V : (c : Dev nD) → (b : Ref sig .tc) → Buf (Elt Ideal) ((c : Thread nD τ).loc b))

/-- The token block at point t is rows 1024·(t / 14) … of the token array, all columns. -/
theorem tokens_apply (c : Dev nD) (t : Fin cfg0.N) (p : Fin 1024) (k : Fin 2048) (r : Fin 4096)
    (hr : r.val = t.val / 14 * 1024 + p.val) :
    (Hand.iblk0 V c 0 t : Vec Ideal S1024x2048 .bf16) (ix2 p k) = (V c main_v0 : S4096x2048.Idx → EReal) (ix2 r k) := by
  have e0 : win0_0.index t (0 : Fin 2) = t.val / 14 := (index_facts t).1
  have e1 : win0_0.index t (1 : Fin 2) = 0 := (index_facts t).2.1
  unfold Hand.iblk0
  rw [View.read_apply]
  show (V c main_v0 : S4096x2048.Idx → EReal) _ = V c main_v0 _
  refine congrArg (V c main_v0 : S4096x2048.Idx → EReal) ?_
  funext a
  apply Fin.ext
  match a with
  | ⟨0, _⟩ => show win0_0.index t (0 : Fin 2) * 1024 + 1 * p.val = r.val; rw [e0, hr]; omega
  | ⟨1, _⟩ => show win0_0.index t (1 : Fin 2) * 2048 + 1 * k.val = k.val; rw [e1]; omega

/-- The first weight block at point t is rows 512·(t % 14) … of the first weight array, all columns. -/
theorem gate_weights_apply (c : Dev nD) (t : Fin cfg0.N) (q : Fin 512) (k : Fin 2048) (r : Fin 7168)
    (hr : r.val = t.val % 14 * 512 + q.val) :
    (Hand.iblk0 V c 1 t : Vec Ideal S512x2048 .bf16) (ix2 q k) = (V c main_v6 : S7168x2048.Idx → EReal) (ix2 r k) := by
  have e0 : win0_1.index t (0 : Fin 2) = t.val % 14 := (index_facts t).2.2.1
  have e1 : win0_1.index t (1 : Fin 2) = 0 := (index_facts t).2.2.2.1
  unfold Hand.iblk0
  rw [View.read_apply]
  show (V c main_v6 : S7168x2048.Idx → EReal) _ = V c main_v6 _
  refine congrArg (V c main_v6 : S7168x2048.Idx → EReal) ?_
  funext a
  apply Fin.ext
  match a with
  | ⟨0, _⟩ => show win0_1.index t (0 : Fin 2) * 512 + 1 * q.val = r.val; rw [e0, hr]; omega
  | ⟨1, _⟩ => show win0_1.index t (1 : Fin 2) * 2048 + 1 * k.val = k.val; rw [e1]; omega

/-- The second weight block at point t is rows 512·(t % 14) … of the second weight array, all columns. -/
theorem up_weights_apply (c : Dev nD) (t : Fin cfg0.N) (q : Fin 512) (k : Fin 2048) (r : Fin 7168)
    (hr : r.val = t.val % 14 * 512 + q.val) :
    (Hand.iblk0 V c 2 t : Vec Ideal S512x2048 .bf16) (ix2 q k) = (V c main_v12 : S7168x2048.Idx → EReal) (ix2 r k) := by
  have e0 : win0_2.index t (0 : Fin 2) = t.val % 14 := (index_facts t).2.2.2.2.1
  have e1 : win0_2.index t (1 : Fin 2) = 0 := (index_facts t).2.2.2.2.2.1
  unfold Hand.iblk0
  rw [View.read_apply]
  show (V c main_v12 : S7168x2048.Idx → EReal) _ = V c main_v12 _
  refine congrArg (V c main_v12 : S7168x2048.Idx → EReal) ?_
  funext a
  apply Fin.ext
  match a with
  | ⟨0, _⟩ => show win0_2.index t (0 : Fin 2) * 512 + 1 * q.val = r.val; rw [e0, hr]; omega
  | ⟨1, _⟩ => show win0_2.index t (1 : Fin 2) * 2048 + 1 * k.val = k.val; rw [e1]; omega

end Blocks

/-! ## One written-back block is a block of `hidden` -/

/-- At an index i of the result whose row is row p of the token block and whose column is row q of both weight blocks,
    the body's output at (p, q) is `hidden` of the whole arrays at i. -/
theorem out_eq_hidden (X : Cert.GatedFfn.SX.Idx → EReal) (W1 W3 : Cert.GatedFfn.SW.Idx → EReal)
    (x0 : Vec Ideal S1024x2048 .bf16) (x1 x2 : Vec Ideal S512x2048 .bf16) (p : Fin 1024) (q : Fin 512)
    (i : Cert.GatedFfn.SH.Idx)
    (h0 : ∀ k : Fin 2048, x0 (ix2 p k) = X (ix2 (i 0) k))
    (h1 : ∀ k : Fin 2048, x1 (ix2 q k) = W1 (ix2 (i 1) k))
    (h2 : ∀ k : Fin 2048, x2 (ix2 q k) = W3 (ix2 (i 1) k)) :
    Hand.out0_3 (F := Ideal) x0 x1 x2 (ix2 p q) = Cert.GatedFfn.hidden X W1 W3 i := by
  rw [out_apply]
  unfold Cert.GatedFfn.hidden Cert.GatedFfn.proj
  simp only [h0, h1, h2]

section Array
variable (V : (c : Dev nD) → (b : Ref sig .tc) → Buf (Elt Ideal) ((c : Thread nD τ).loc b))

/-- What point t writes back is block t of `hidden` of the three arrays as the region finds them. -/
theorem flushed_hidden (c : Dev nD) (t : Fin cfg0.N) :
    (Hand.dat0 (F := Ideal) V c).flushed 3 t
      = ((cfg0.win 3).blk t).view.read (Elt Ideal) (Cert.GatedFfn.hidden (V c main_v0) (V c main_v6) (V c main_v12)) := by
  have e6 : win0_3.index t (0 : Fin 2) = t.val / 14 := (index_facts t).2.2.2.2.2.2.1
  have e7 : win0_3.index t (1 : Fin 2) = t.val % 14 := (index_facts t).2.2.2.2.2.2.2
  show (cfg0.win 3).cut (grid0.coords t) ((Hand.dat0 V c).after 3 t) = _
  rw [Hand.after0_3]
  funext j
  obtain ⟨p, q, rfl⟩ : ∃ (p : Fin 1024) (q : Fin 512), j = ix2 p q := ⟨j 0, j 1, eq_ix2 j⟩
  show Hand.out0_3 (F := Ideal) (Hand.iblk0 V c 0 t) (Hand.iblk0 V c 1 t) (Hand.iblk0 V c 2 t) (ix2 p q)
    = Cert.GatedFfn.hidden (V c main_v0) (V c main_v6) (V c main_v12) (((cfg0.win 3).blk t).view.emb (ix2 p q))
  refine out_eq_hidden (V c main_v0) (V c main_v6) (V c main_v12) _ _ _ p q _ (fun k => ?_) (fun k => ?_) (fun k => ?_)
  · refine tokens_apply V c t p k _ ?_
    show win0_3.index t (0 : Fin 2) * 1024 + 1 * p.val = t.val / 14 * 1024 + p.val
    rw [e6]; omega
  · refine gate_weights_apply V c t q k _ ?_
    show win0_3.index t (1 : Fin 2) * 512 + 1 * q.val = t.val % 14 * 512 + q.val
    rw [e7]; omega
  · refine up_weights_apply V c t q k _ ?_
    show win0_3.index t (1 : Fin 2) * 512 + 1 * q.val = t.val % 14 * 512 + q.val
    rw [e7]; omega

/-- An index of the result is in point t's block iff each coordinate is in the block's range on its axis. -/
theorem mem_block (t : Fin cfg0.N) (i : S4096x7168.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v19).slice (win0_3.rect t)).set ↔ _
  rw [View.set_slice_whole, Rect.mem_set_unit]
  exact Iff.rfl

/-- The 56 blocks tile the result: row r, column f lie in the block of the point (r / 1024) · 14 + f / 512. -/
theorem cover (i : S4096x7168.Idx) :
    ∃ t : Fin cfg0.N, (cfg0.win 3).flush t = true ∧ i ∈ ((cfg0.win 3).blk t).view.set := by
  have hN : cfg0.N = 56 := N_0
  have hi0 : (i 0).val < 4096 := (i 0).isLt
  have hi1 : (i 1).val < 7168 := (i 1).isLt
  let t : Fin cfg0.N := ⟨(i 0).val / 1024 * 14 + (i 1).val / 512, by rw [hN]; omega⟩
  have ht : t.val = (i 0).val / 1024 * 14 + (i 1).val / 512 := rfl
  have e6 : win0_3.index t (0 : Fin 2) = t.val / 14 := (index_facts t).2.2.2.2.2.2.1
  have e7 : win0_3.index t (1 : Fin 2) = t.val % 14 := (index_facts t).2.2.2.2.2.2.2
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; rw [e6, ht]; omega
  | ⟨1, _⟩ => show win0_3.index t (1 : Fin 2) * 512 ≤ (i 1).val ∧ (i 1).val < win0_3.index t (1 : Fin 2) * 512 + 512; rw [e7, ht]; omega

/-- The result array after the region: `hidden` of the three arrays as the region finds them. -/
theorem final_hidden (c : Dev nD) :
    (Hand.dat0 (F := Ideal) V c).arrAt 3 cfg0.N = Cert.GatedFfn.hidden (V c main_v0) (V c main_v6) (V c main_v12) :=
  (Hand.dat0 (F := Ideal) V c).arrAt_eq_of_cover 3 (Cert.GatedFfn.hidden (V c main_v0) (V c main_v6) (V c main_v12))
    (fun t _ => flushed_hidden V c t) cover

end Array

end Cert.KernelIdeal.UpValue

end
-- ==== Proof.IdealDownChain.lean ====
/-
  The down-projection's accumulator in closed form.

  Each kind of point leaves in the scratch one whole-block store: the body's sum "scratch + activations · weightsᵀ"
  taken at the scratch it was entered with — the zero block at a first point of seven, what the point before left
  otherwise — and the last point of seven copies that same block to the output. So the scratch after point n is a
  running sum that restarts every seven points, and the output block written back after a last point is the running sum
  there.
-/
import proofs.«151965_j90640989814791_2_alg».proof.Proof.IdealDown
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem origin_zero : (![0, 0] : Fin 2 → Nat) = fun _ => 0 := funext fun a => by fin_cases a <;> rfl

/-- A middle point leaves the body's sum at the scratch it found. -/
theorem sout1_B_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs0 : Vec F S1024x1024 .f32) :
    sout1_B c i arg3 harg3 arg4 harg4 arg5 harg5 arg6 harg6 hc0 hc1 x0 x1 xs0 = k1_pay2 xs0 x0 x1 := by
  unfold sout1_B
  rw [View.read_writes_eq_canon _ _ _ (scover1_B c i arg3 harg3 arg4 harg4 arg5 harg5 arg6 harg6 hc0 hc1 x0 x1 xs0)]
  unfold kernelRun1_B
  dsimp only
  rw [View.canon_unit_zero origin_zero]
  simp only [View.readAt_eq_ld, harg3.read_unread, harg4.read_unread, harg6.read_unread, View.ld_unit_zero (S := S1024x1024) origin_zero]

/-- A first point of seven leaves the body's sum at the zero block. -/
theorem sout1_A_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 x1 : Vec F S1024x1024 .bf16) :
    sout1_A c i arg3 harg3 arg4 harg4 arg5 harg5 arg6 harg6 hc0 hc1 x0 x1 = k1_pay2 (k1_pay1 (F := F)) x0 x1 := by
  unfold sout1_A
  rw [View.read_writes_eq_canon _ _ _ (scover1_A c i arg3 harg3 arg4 harg4 arg5 harg5 arg6 harg6 hc0 hc1 x0 x1)]
  unfold kernelRun1_A
  dsimp only
  sl_unfold_words
  rw [View.canon_cons_unit_zero (S := S1024x1024) origin_zero, View.readCov_unit_zero (S := S1024x1024) _ origin_zero]
  simp only [View.readAt_eq_ld, harg3.read_unread, harg4.read_unread, View.ld_unit_zero (S := S1024x1024) origin_zero]

/-- A last point of seven leaves the same sum in the scratch, -/
theorem sout1_C_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) :
    sout1_C c i arg3 harg3 arg4 harg4 arg5 harg5 arg6 harg6 hc0 hc1 x0 x1 xs0 = k1_pay2 xs0 x0 x1 := by
  unfold sout1_C
  rw [View.read_writes_eq_canon _ _ _ (scover1_C c i arg3 harg3 arg4 harg4 arg5 harg5 arg6 harg6 hc0 hc1 x0 x1 xs0)]
  unfold kernelRun1_C
  dsimp only
  sl_unfold_words
  rw [View.canon_unit_zero origin_zero]
  simp only [View.readAt_eq_ld, harg3.read_unread, harg4.read_unread, harg6.read_unread, View.ld_unit_zero (S := S1024x1024) origin_zero]

/-- and copies it to the output block. -/
theorem out1_C_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) :
    out1_C c i arg3 harg3 arg4 harg4 arg5 harg5 arg6 harg6 hc0 hc1 x0 x1 xs0 = k1_pay2 xs0 x0 x1 := by
  unfold out1_C
  rw [View.read_writes_eq_canon _ _ _ (cover1_C c i arg3 harg3 arg4 harg4 arg5 harg5 arg6 harg6 hc0 hc1 x0 x1 xs0)]
  unfold kernelRun1_C
  dsimp only
  sl_unfold_words
  rw [View.canon_unit_zero origin_zero, View.readCov_unit_zero (S := S1024x1024) _ origin_zero]
  simp only [View.readAt_eq_ld, harg3.read_unread, harg4.read_unread, harg6.read_unread, View.ld_unit_zero (S := S1024x1024) origin_zero]

/-! ## The running sum -/

/-- The scratch after point `n`: the body's sum at the zero block when `n` is a first point of seven, at the running
    sum after point `n − 1` otherwise. -/
def acc (c : Dev nD) : (n : ℕ) → n < cfg1.N → Vec F S1024x1024 .f32
  | 0, h => k1_pay2 (k1_pay1 (F := F)) (iblk1 V c 0 ⟨0, h⟩) (iblk1 V c 1 ⟨0, h⟩)
  | n + 1, h =>
    if (n + 1) % 7 = 0 then k1_pay2 (k1_pay1 (F := F)) (iblk1 V c 0 ⟨n + 1, h⟩) (iblk1 V c 1 ⟨n + 1, h⟩)
    else k1_pay2 (acc c n (Nat.lt_of_succ_lt h)) (iblk1 V c 0 ⟨n + 1, h⟩) (iblk1 V c 1 ⟨n + 1, h⟩)

theorem acc_first (c : Dev nD) (t : Fin cfg1.N) (h0 : t.val % 7 = 0) :
    acc V c t.val t.isLt = k1_pay2 (k1_pay1 (F := F)) (iblk1 V c 0 t) (iblk1 V c 1 t) := by
  obtain ⟨n, hn⟩ := t
  cases n with
  | zero => rfl
  | succ n => exact if_pos h0

theorem acc_next (c : Dev nD) (t : Fin cfg1.N) (h0 : ¬t.val % 7 = 0) :
    acc V c t.val t.isLt = k1_pay2 (acc V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact if_neg h0

/-- What a first point of seven leaves in the scratch. -/
theorem outsAt1_A_snd (c : Dev nD) (t : Fin cfg1.N) (h0 : t.val % 7 = 0) (h1 : ¬t.val % 7 = 6) :
    (outsAt1 V c t.val t.isLt).2 = k1_pay2 (k1_pay1 (F := F)) (iblk1 V c 0 t) (iblk1 V c 1 t) := by
  rw [outsAt1_A V c t h0 h1]
  dsimp only
  exact sout1_A_eq (F := F) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)

/-- What a middle point leaves in the scratch, over what the point before left. -/
theorem outsAt1_B_snd (c : Dev nD) (t : Fin cfg1.N) (h0 : ¬t.val % 7 = 0) (h1 : ¬t.val % 7 = 6) :
    (outsAt1 V c t.val t.isLt).2 = k1_pay2 (outsAt1 V c (t.val - 1) (Nat.lt_of_le_of_lt (Nat.sub_le _ _) t.isLt)).2 (iblk1 V c 0 t) (iblk1 V c 1 t) := by
  rw [outsAt1_B V c t h0 h1]
  dsimp only
  exact sout1_B_eq (F := F) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2

/-- What a last point of seven leaves in the scratch, -/
theorem outsAt1_C_snd (c : Dev nD) (t : Fin cfg1.N) (h0 : ¬t.val % 7 = 0) (h1 : t.val % 7 = 6) :
    (outsAt1 V c t.val t.isLt).2 = k1_pay2 (outsAt1 V c (t.val - 1) (Nat.lt_of_le_of_lt (Nat.sub_le _ _) t.isLt)).2 (iblk1 V c 0 t) (iblk1 V c 1 t) := by
  rw [outsAt1_C V c t h0 h1]
  dsimp only
  exact sout1_C_eq (F := F) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2

/-- and in the output block. -/
theorem outsAt1_C_fst (c : Dev nD) (t : Fin cfg1.N) (h0 : ¬t.val % 7 = 0) (h1 : t.val % 7 = 6) :
    (outsAt1 V c t.val t.isLt).1 = k1_pay2 (outsAt1 V c (t.val - 1) (Nat.lt_of_le_of_lt (Nat.sub_le _ _) t.isLt)).2 (iblk1 V c 0 t) (iblk1 V c 1 t) := by
  rw [outsAt1_C V c t h0 h1]
  dsimp only
  exact out1_C_eq (F := F) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2

/-- What the scratch holds after point `n` is the running sum — by induction on the point. -/
theorem outsAt1_snd (c : Dev nD) : ∀ (n : ℕ) (h : n < cfg1.N), (outsAt1 V c n h).2 = acc V c n h
  | 0, h => (outsAt1_A_snd V c ⟨0, h⟩ (Nat.zero_mod _) (by show ¬0 % 7 = 6; decide)).trans (acc_first V c ⟨0, h⟩ (Nat.zero_mod _)).symm
  | n + 1, h => by
    by_cases h0 : (n + 1) % 7 = 0
    · have h1 : ¬(n + 1) % 7 = 6 := by omega
      exact (outsAt1_A_snd V c ⟨n + 1, h⟩ h0 h1).trans (acc_first V c ⟨n + 1, h⟩ h0).symm
    · have ih := outsAt1_snd c n (Nat.lt_of_succ_lt h)
      have step : (outsAt1 V c (n + 1) h).2 = k1_pay2 (outsAt1 V c n (Nat.lt_of_succ_lt h)).2 (iblk1 V c 0 ⟨n + 1, h⟩) (iblk1 V c 1 ⟨n + 1, h⟩) := by
        by_cases h1 : (n + 1) % 7 = 6
        · exact outsAt1_C_snd V c ⟨n + 1, h⟩ h0 h1
        · exact outsAt1_B_snd V c ⟨n + 1, h⟩ h0 h1
      rw [step, ih]
      exact (acc_next V c ⟨n + 1, h⟩ h0).symm

/-- The output block a last point of seven leaves is the running sum there. -/
theorem outsAt1_fst (c : Dev nD) (t : Fin cfg1.N) (h1 : t.val % 7 = 6) :
    (outsAt1 V c t.val t.isLt).1 = acc V c t.val t.isLt := by
  have h0 : ¬t.val % 7 = 0 := by omega
  rw [outsAt1_C_fst V c t h0 h1, outsAt1_snd V c _ _]
  exact (acc_next V c t h0).symm

end Cert.KernelIdeal.Hand

end
-- ==== Proof.IdealDownValue.lean ====
/-
  The second region's value: the down-projection, accumulated over seven blocks of the hidden axis.

  The grid has 4 × 2 × 7 points; the point number t stands for the triple (t / 14, (t / 7) % 2, t % 7). At the point
  (i, j, k) the body reads the block (i, k) of the hidden activations [4096, 7168] and the block (j, k) of the weights
  [2048, 7168], blocks of 1024 × 1024, and adds their product over the shared 1024 columns onto a running sum that
  restarts at k = 0; after k = 6 the running sum is written to the block (i, j) of the [4096, 2048] result. A sum over
  7168 columns is the sum over the seven blocks of the sums over their 1024 columns, so the block written back is the
  block of the one function `contract` of the two whole arrays; the eight written blocks tile the result.
-/
import proofs.«151965_j90640989814791_2_alg».proof.Proof.IdealDownChain
import proofs.«151965_j90640989814791_2_alg».proof.Proof.Payload
import proofs.«151965_j90640989814791_2_alg».proof.Proof.Spec
import Idealize.ShloMosaic.Lib.Pipeline.Value
import Idealize.ShloMosaic.Lib.ValueIdx

noncomputable section

namespace Cert.KernelIdeal.DownValue

open Cert.KernelIdeal Cert.KernelIdeal.Gen
open Idealize.ShloMosaic Idealize.ShloMosaic.TcCoe Idealize.ShloMosaic.ValueIdx Idealize.SL.Sem
open Idealize.ShloMosaic.Pipeline (Dat)

/-! ## A sum over m · n terms, block by block -/

theorem block_lt {m n : Nat} (a : Fin m) (b : Fin n) : a.val * n + b.val < m * n :=
  Nat.lt_of_lt_of_le (Nat.add_lt_add_left b.isLt _) (by rw [← Nat.succ_mul]; exact Nat.mul_le_mul_right _ a.isLt)

/-- In a commutative monoid a sum over N = m · n terms is the sum over the m blocks of the sums over their n terms. -/
theorem sum_blocks {M : Type*} [AddCommMonoid M] (m n N : Nat) (h : m * n = N) (f : Fin N → M) :
    ∑ x : Fin N, f x = ∑ a : Fin m, ∑ b : Fin n, f ⟨a.val * n + b.val, h ▸ block_lt a b⟩ := by
  subst h
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

/-! ## The contraction, block by block -/

/-- Column f of the k-th block of 1024 columns of the hidden axis (k read modulo 7). -/
def col (k : Nat) (f : Fin 1024) : Fin 7168 :=
  ⟨k % 7 * 1024 + f.val, by have := f.isLt; have := Nat.mod_lt k (show 0 < 7 by decide); omega⟩

/-- Row p of the activation block of point n. -/
def actRow (n : Nat) (p : Fin 1024) : Fin 4096 :=
  ⟨n / 14 % 4 * 1024 + p.val, by have := p.isLt; have := Nat.mod_lt (n / 14) (show 0 < 4 by decide); omega⟩

/-- Row q of the weight block of point n. -/
def weightRow (n : Nat) (q : Fin 1024) : Fin 2048 :=
  ⟨n / 7 % 2 * 1024 + q.val, by have := q.isLt; have := Nat.mod_lt (n / 7) (show 0 < 2 by decide); omega⟩

/-- The part of the contraction of row R of the activations with row C of the weights that block k contributes. -/
def blockSum (H : Cert.GatedFfn.SH.Idx → EReal) (W : Cert.GatedFfn.SD.Idx → EReal) (R : Fin 4096) (C : Fin 2048) (k : Nat) : EReal :=
  ∑ f : Fin 1024, H (ix2 R (col k f)) * W (ix2 C (col k f))

/-- The contraction over the 7168 hidden columns is the sum of the seven blocks' parts. -/
theorem contract_blocks (H : Cert.GatedFfn.SH.Idx → EReal) (W : Cert.GatedFfn.SD.Idx → EReal) (R : Fin 4096) (C : Fin 2048) :
    Cert.GatedFfn.contract H W (ix2 R C) = ∑ k ∈ Finset.range 7, blockSum H W R C k := by
  show ∑ f : Fin 7168, H (ix2 R f) * W (ix2 C f) = _
  rw [sum_blocks 7 1024 7168 rfl, ← Fin.sum_univ_eq_sum_range (fun k => blockSum H W R C k) 7]
  refine Finset.sum_congr rfl fun k _ => ?_
  unfold blockSum
  refine Finset.sum_congr rfl fun f _ => ?_
  have e : ∀ h : k.val * 1024 + f.val < 7168, (⟨k.val * 1024 + f.val, h⟩ : Fin 7168) = col k.val f :=
    fun h => Fin.ext (by show k.val * 1024 + f.val = k.val % 7 * 1024 + f.val; rw [Nat.mod_eq_of_lt k.isLt])
  rw [e]

/-! ## The printed index maps over the grid -/

/-- Point t is the triple (t / 14, (t / 7) % 2, t % 7): the activation window sits at block (t / 14, t % 7), the weight
    window at block ((t / 7) % 2, t % 7), the result window at block (t / 14, (t / 7) % 2). -/
theorem index_facts : ∀ t : Fin cfg1.N,
    win1_0.index t (0 : Fin 2) = t.val / 14 ∧ win1_0.index t (1 : Fin 2) = t.val % 7
    ∧ win1_1.index t (0 : Fin 2) = t.val / 7 % 2 ∧ win1_1.index t (1 : Fin 2) = t.val % 7
    ∧ win1_2.index t (0 : Fin 2) = t.val / 14 ∧ win1_2.index t (1 : Fin 2) = t.val / 7 % 2 :=
  (by decide +kernel : ∀ t : Fin grid1.N, _)

/-! ## The input blocks as blocks of their arrays -/

section Blocks
variable (V : (c : Dev nD) → (b : Ref sig .tc) → Buf (Elt Ideal) ((c : Thread nD τ).loc b))

/-- The activation block at point t is rows 1024·(t / 14) … and columns 1024·(t % 7) … of the activations. -/
theorem acts_apply (c : Dev nD) (t : Fin cfg1.N) (p f : Fin 1024) :
    (Hand.iblk1 V c 0 t : Vec Ideal S1024x1024 .bf16) (ix2 p f)
      = (V c main_v19 : S4096x7168.Idx → EReal) (ix2 (actRow t.val p) (col t.val f)) := by
  have hN : cfg1.N = 56 := N_1
  have ht : t.val < 56 := hN ▸ t.isLt
  have e0 : win1_0.index t (0 : Fin 2) = t.val / 14 := (index_facts t).1
  have e1 : win1_0.index t (1 : Fin 2) = t.val % 7 := (index_facts t).2.1
  unfold Hand.iblk1
  rw [View.read_apply]
  show (V c main_v19 : S4096x7168.Idx → EReal) _ = V c main_v19 _
  refine congrArg (V c main_v19 : S4096x7168.Idx → EReal) ?_
  funext a
  apply Fin.ext
  match a with
  | ⟨0, _⟩ => show win1_0.index t (0 : Fin 2) * 1024 + 1 * p.val = t.val / 14 % 4 * 1024 + p.val; rw [e0]; omega
  | ⟨1, _⟩ => show win1_0.index t (1 : Fin 2) * 1024 + 1 * f.val = t.val % 7 * 1024 + f.val; rw [e1]; omega

/-- The weight block at point t is rows 1024·((t / 7) % 2) … and columns 1024·(t % 7) … of the weights. -/
theorem weights_apply (c : Dev nD) (t : Fin cfg1.N) (q f : Fin 1024) :
    (Hand.iblk1 V c 1 t : Vec Ideal S1024x1024 .bf16) (ix2 q f)
      = (V c main_v18 : S2048x7168.Idx → EReal) (ix2 (weightRow t.val q) (col t.val f)) := by
  have hN : cfg1.N = 56 := N_1
  have ht : t.val < 56 := hN ▸ t.isLt
  have e0 : win1_1.index t (0 : Fin 2) = t.val / 7 % 2 := (index_facts t).2.2.1
  have e1 : win1_1.index t (1 : Fin 2) = t.val % 7 := (index_facts t).2.2.2.1
  unfold Hand.iblk1
  rw [View.read_apply]
  show (V c main_v18 : S2048x7168.Idx → EReal) _ = V c main_v18 _
  refine congrArg (V c main_v18 : S2048x7168.Idx → EReal) ?_
  funext a
  apply Fin.ext
  match a with
  | ⟨0, _⟩ => show win1_1.index t (0 : Fin 2) * 1024 + 1 * q.val = t.val / 7 % 2 * 1024 + q.val; rw [e0]; omega
  | ⟨1, _⟩ => show win1_1.index t (1 : Fin 2) * 1024 + 1 * f.val = t.val % 7 * 1024 + f.val; rw [e1]; omega

end Blocks

/-! ## The running sum at an index -/

section Sum
variable (V : (c : Dev nD) → (b : Ref sig .tc) → Buf (Elt Ideal) ((c : Thread nD τ).loc b))

/-- One step of the body at (p, q): the accumulator there plus the part of the contraction that the point's block
    contributes. -/
theorem step_apply (c : Dev nD) (t : Fin cfg1.N) (a : Vec Ideal S1024x1024 .f32) (p q : Fin 1024) :
    k1_pay2 (F := Ideal) a (Hand.iblk1 V c 0 t) (Hand.iblk1 V c 1 t) (ix2 p q)
      = a (ix2 p q) + blockSum (V c main_v19) (V c main_v18) (actRow t.val p) (weightRow t.val q) t.val := by
  refine (Payload.pay_acc a (Hand.iblk1 V c 0 t) (Hand.iblk1 V c 1 t) p q).trans ?_
  refine congrArg (a (ix2 p q) + ·) ?_
  unfold blockSum
  refine Finset.sum_congr rfl fun f _ => ?_
  rw [acts_apply V c t p f, weights_apply V c t q f]

/-- The block's part depends on the point only through its block column t % 7. -/
theorem blockSum_mod (H : Cert.GatedFfn.SH.Idx → EReal) (W : Cert.GatedFfn.SD.Idx → EReal) (R : Fin 4096) (C : Fin 2048) (k : Nat) :
    blockSum H W R C k = blockSum H W R C (k % 7) := by
  unfold blockSum
  refine Finset.sum_congr rfl fun f _ => ?_
  have e : col k f = col (k % 7) f := Fin.ext (by show k % 7 * 1024 + f.val = k % 7 % 7 * 1024 + f.val; rw [Nat.mod_mod])
  rw [e]

/-- The scratch after point n, at (p, q): the parts of the blocks 0 … n % 7 of the contraction of the point's
    activation row with its weight row. -/
theorem acc_apply (c : Dev nD) : ∀ (n : ℕ) (h : n < cfg1.N) (p q : Fin 1024),
    Hand.acc (F := Ideal) V c n h (ix2 p q)
      = ∑ k ∈ Finset.range (n % 7 + 1), blockSum (V c main_v19) (V c main_v18) (actRow n p) (weightRow n q) k
  | 0, h, p, q => by
    rw [Hand.acc_first V c ⟨0, h⟩ rfl, step_apply V c ⟨0, h⟩ (k1_pay1 (F := Ideal)) p q, Payload.pay_zero, zero_add]
    show _ = ∑ k ∈ Finset.range 1, _
    rw [Finset.sum_range_one]
  | n + 1, h, p, q => by
    by_cases h0 : (n + 1) % 7 = 0
    · rw [Hand.acc_first V c ⟨n + 1, h⟩ h0, step_apply V c ⟨n + 1, h⟩ (k1_pay1 (F := Ideal)) p q, Payload.pay_zero, zero_add]
      show blockSum _ _ _ _ (n + 1) = _
      rw [h0, Finset.sum_range_one, blockSum_mod, h0]
    · have ih := acc_apply c n (Nat.lt_of_succ_lt h) p q
      rw [Hand.acc_next V c ⟨n + 1, h⟩ h0, step_apply V c ⟨n + 1, h⟩ _ p q]
      show Hand.acc (F := Ideal) V c n _ (ix2 p q) + blockSum _ _ (actRow (n + 1) p) (weightRow (n + 1) q) (n + 1) = _
      have eR : actRow n p = actRow (n + 1) p := Fin.ext (by show n / 14 % 4 * 1024 + p.val = (n + 1) / 14 % 4 * 1024 + p.val; omega)
      have eC : weightRow n q = weightRow (n + 1) q := Fin.ext (by show n / 7 % 2 * 1024 + q.val = (n + 1) / 7 % 2 * 1024 + q.val; omega)
      have ek : (n + 1) % 7 + 1 = (n % 7 + 1) + 1 := by omega
      rw [ih, eR, eC, ek, Finset.sum_range_succ _ (n % 7 + 1), blockSum_mod _ _ _ _ (n + 1), show (n + 1) % 7 = n % 7 + 1 from by omega]

end Sum

/-! ## One written-back block is a block of `contract` -/

section Array
variable (V : (c : Dev nD) → (b : Ref sig .tc) → Buf (Elt Ideal) ((c : Thread nD τ).loc b))

/-- What a last point of seven writes back is its block of `contract` of the two arrays as the region finds them. -/
theorem flushed_contract (c : Dev nD) (t : Fin cfg1.N) (h6 : t.val % 7 = 6) :
    (Hand.dat1 (F := Ideal) V c).flushed 2 t
      = ((cfg1.win 2).blk t).view.read (Elt Ideal) (Cert.GatedFfn.contract (V c main_v19) (V c main_v18)) := by
  have hN : cfg1.N = 56 := N_1
  have ht : t.val < 56 := hN ▸ t.isLt
  have e4 : win1_2.index t (0 : Fin 2) = t.val / 14 := (index_facts t).2.2.2.2.1
  have e5 : win1_2.index t (1 : Fin 2) = t.val / 7 % 2 := (index_facts t).2.2.2.2.2
  show (cfg1.win 2).cut (grid1.coords t) ((Hand.dat1 V c).after 2 t) = _
  rw [Hand.after1_2, Hand.outsAt1_fst V c t h6]
  funext j
  obtain ⟨p, q, rfl⟩ : ∃ (p q : Fin 1024), j = ix2 p q := ⟨j 0, j 1, eq_ix2 j⟩
  show Hand.acc (F := Ideal) V c t.val t.isLt (ix2 p q)
    = Cert.GatedFfn.contract (V c main_v19) (V c main_v18) (((cfg1.win 2).blk t).view.emb (ix2 p q))
  have ei : ((cfg1.win 2).blk t).view.emb (ix2 p q) = ix2 (actRow t.val p) (weightRow t.val q) := by
    funext a
    apply Fin.ext
    match a with
    | ⟨0, _⟩ => show win1_2.index t (0 : Fin 2) * 1024 + 1 * p.val = t.val / 14 % 4 * 1024 + p.val; rw [e4]; omega
    | ⟨1, _⟩ => show win1_2.index t (1 : Fin 2) * 1024 + 1 * q.val = t.val / 7 % 2 * 1024 + q.val; rw [e5]; omega
  rw [ei, contract_blocks, acc_apply V c t.val t.isLt p q, h6]

/-- An index of the result is in point t's block iff each coordinate is in the block's range on its axis. -/
theorem mem_block (t : Fin cfg1.N) (i : S4096x2048.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v20).slice (win1_2.rect t)).set ↔ _
  rw [View.set_slice_whole, Rect.mem_set_unit]
  exact Iff.rfl

/-- The eight written blocks tile the result: row r, column n lie in the block written at the point
    (r / 1024) · 14 + (n / 1024) · 7 + 6. -/
theorem cover (i : S4096x2048.Idx) :
    ∃ t : Fin cfg1.N, (cfg1.win 2).flush t = true ∧ i ∈ ((cfg1.win 2).blk t).view.set := by
  have hN : cfg1.N = 56 := N_1
  have hi0 : (i 0).val < 4096 := (i 0).isLt
  have hi1 : (i 1).val < 2048 := (i 1).isLt
  let t : Fin cfg1.N := ⟨(i 0).val / 1024 * 14 + (i 1).val / 1024 * 7 + 6, by rw [hN]; omega⟩
  have ht : t.val = (i 0).val / 1024 * 14 + (i 1).val / 1024 * 7 + 6 := rfl
  have e4 : win1_2.index t (0 : Fin 2) = t.val / 14 := (index_facts t).2.2.2.2.1
  have e5 : win1_2.index t (1 : Fin 2) = t.val / 7 % 2 := (index_facts t).2.2.2.2.2
  refine ⟨t, (flush1_2 t).mpr (by rw [ht]; omega), ?_⟩
  rw [mem_block]
  intro a
  match a with
  | ⟨0, _⟩ => show win1_2.index t (0 : Fin 2) * 1024 ≤ (i 0).val ∧ (i 0).val < win1_2.index t (0 : Fin 2) * 1024 + 1024; rw [e4, ht]; omega
  | ⟨1, _⟩ => show win1_2.index t (1 : Fin 2) * 1024 ≤ (i 1).val ∧ (i 1).val < win1_2.index t (1 : Fin 2) * 1024 + 1024; rw [e5, ht]; omega

/-- The result array after the region: `contract` of the two arrays as the region finds them. -/
theorem final_out (c : Dev nD) :
    (Hand.dat1 (F := Ideal) V c).arrAt 2 cfg1.N = Cert.GatedFfn.contract (V c main_v19) (V c main_v18) :=
  (Hand.dat1 (F := Ideal) V c).arrAt_eq_of_cover 2 (Cert.GatedFfn.contract (V c main_v19) (V c main_v18))
    (fun t hf => flushed_contract V c t ((flush1_2 t).mp hf)) cover

end Array

end Cert.KernelIdeal.DownValue

end
-- ==== Proof.ScaledWeight.lean ====
/-
  A block-scaled weight read at an index.

  A weight matrix wq : [N, K] with one scale per 128 × 128 block, ws : [N/128, K/128], is multiplied out by five
  layout and pointwise steps: wq is re-indexed to [N/128, 128, K/128, 128] (row-major, so entry (n, k) sits at
  (n / 128, n % 128, k / 128, k % 128)); ws is placed on axes 0 and 2 of [N/128, 1, K/128, 1] and then repeated
  along the two unit axes; the two are multiplied entry by entry; the product is re-indexed back to [N, K].
  Read at (n, k) the result is wq (n, k) · ws (n / 128, k / 128). The statements take every side condition of the
  layout steps as a variable, so they apply to any program that performs these five steps.
-/
import proofs.«151965_j90640989814791_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.GatedFfn

open Idealize.ShloMosaic Idealize.ShloMosaic.ValueIdx

/-- An up-projection weight by blocks: [56, 128, 16, 128]. -/
abbrev S4 : Shape := ⟨4, ![56, 128, 16, 128]⟩
/-- Its scales with the two unit axes in place: [56, 1, 16, 1]. -/
abbrev S4u : Shape := ⟨4, ![56, 1, 16, 1]⟩
/-- The down-projection weight by blocks: [16, 128, 56, 128]. -/
abbrev D4 : Shape := ⟨4, ![16, 128, 56, 128]⟩
/-- Its scales with the two unit axes in place: [16, 1, 56, 1]. -/
abbrev D4u : Shape := ⟨4, ![16, 1, 56, 1]⟩

/-- The block coordinates of an entry (n, k) of an up-projection weight. -/
abbrev wIdx4 (i : SW.Idx) : S4.Idx :=
  ix4 (⟨(i 0).val / 128, by have := idx2_lt0 i; omega⟩ : Fin 56) (⟨(i 0).val % 128, by omega⟩ : Fin 128)
    (⟨(i 1).val / 128, by have := idx2_lt1 i; omega⟩ : Fin 16) (⟨(i 1).val % 128, by omega⟩ : Fin 128)

/-- The block coordinates of an entry (n, f) of the down-projection weight. -/
abbrev dIdx4 (i : SD.Idx) : D4.Idx :=
  ix4 (⟨(i 0).val / 128, by have := idx2_lt0 i; omega⟩ : Fin 16) (⟨(i 0).val % 128, by omega⟩ : Fin 128)
    (⟨(i 1).val / 128, by have := idx2_lt1 i; omega⟩ : Fin 56) (⟨(i 1).val % 128, by omega⟩ : Fin 128)

/-- The five steps on an up-projection weight, read at an entry: the entry times its block's scale. -/
theorem scaledW_apply (wq : FVec Ideal SW .f32) (ws : FVec Ideal SWs .f32) (h1 : SW.ShapeCasts S4)
    (h2 : SWs.BroadcastsInDim S4u (![0, 2] : Fin 2 → Fin S4u.rank))
    (h3 : S4u.BroadcastsInDim S4 (![0, 1, 2, 3] : Fin 4 → Fin S4.rank)) (h4 : S4.ShapeCasts SW) (i : SW.Idx) :
    shapeCast SW (mulf (shapeCast S4 wq h1) (broadcastInDim S4 ![0, 1, 2, 3] h3 (broadcastInDim S4u ![0, 2] h2 ws))) h4 i
      = scaledW wq ws i := by
  have hi0 : (i 0).val < 7168 := idx2_lt0 i
  have hi1 : (i 1).val < 2048 := idx2_lt1 i
  -- back from blocks: (n, k) is read at (n / 128, n % 128, k / 128, k % 128)
  refine (shapeCast_apply _ h4 i (wIdx4 i) (by
    rw [Shape.rowMajor_val_four, Shape.rowMajor_val_two]
    show (((i 0).val / 128 * 128 + (i 0).val % 128) * 16 + (i 1).val / 128) * 128 + (i 1).val % 128 = (i 0).val * 2048 + (i 1).val
    omega)).trans ?_
  show shapeCast S4 wq h1 (wIdx4 i) * broadcastInDim S4 ![0, 1, 2, 3] h3 (broadcastInDim S4u ![0, 2] h2 ws) (wIdx4 i) = wq i * ws (ix2 (blk 56 (i 0) rfl) (blk 16 (i 1) rfl))
  congr 1
  · -- into blocks: the same row-major position
    exact shapeCast_apply wq h1 (wIdx4 i) i (by
      rw [Shape.rowMajor_val_four, Shape.rowMajor_val_two]
      show (i 0).val * 2048 + (i 1).val = (((i 0).val / 128 * 128 + (i 0).val % 128) * 16 + (i 1).val / 128) * 128 + (i 1).val % 128
      omega)
  · -- the scale: repeated along the unit axes 1 and 3, placed on axes 0 and 2
    refine (broadcastInDim_apply _ h3 _ (wIdx4 i)
      (ix4 (⟨(i 0).val / 128, by omega⟩ : Fin 56) (0 : Fin 1) (⟨(i 1).val / 128, by omega⟩ : Fin 16) (0 : Fin 1)) (fun a => match a with
        | ⟨0, _⟩ => by show (i 0).val / 128 = if (56 : Nat) = 1 then 0 else (i 0).val / 128; rw [if_neg (by decide)]
        | ⟨1, _⟩ => by show 0 = if (1 : Nat) = 1 then 0 else (i 0).val % 128; rw [if_pos rfl]
        | ⟨2, _⟩ => by show (i 1).val / 128 = if (16 : Nat) = 1 then 0 else (i 1).val / 128; rw [if_neg (by decide)]
        | ⟨3, _⟩ => by show 0 = if (1 : Nat) = 1 then 0 else (i 1).val % 128; rw [if_pos rfl])).trans ?_
    exact broadcastInDim_apply _ h2 ws _ (ix2 (blk 56 (i 0) rfl) (blk 16 (i 1) rfl)) (fun a => match a with
        | ⟨0, _⟩ => by show (i 0).val / 128 = if (56 : Nat) = 1 then 0 else (i 0).val / 128; rw [if_neg (by decide)]
        | ⟨1, _⟩ => by show (i 1).val / 128 = if (16 : Nat) = 1 then 0 else (i 1).val / 128; rw [if_neg (by decide)])

/-- The five steps on an up-projection weight are the block-scaled weight. -/
theorem scaledW_eq (wq : FVec Ideal SW .f32) (ws : FVec Ideal SWs .f32) (h1 : SW.ShapeCasts S4)
    (h2 : SWs.BroadcastsInDim S4u (![0, 2] : Fin 2 → Fin S4u.rank))
    (h3 : S4u.BroadcastsInDim S4 (![0, 1, 2, 3] : Fin 4 → Fin S4.rank)) (h4 : S4.ShapeCasts SW) :
    shapeCast SW (mulf (shapeCast S4 wq h1) (broadcastInDim S4 ![0, 1, 2, 3] h3 (broadcastInDim S4u ![0, 2] h2 ws))) h4
      = scaledW wq ws :=
  funext fun i => scaledW_apply wq ws h1 h2 h3 h4 i

/-- The five steps on the down-projection weight, read at an entry: the entry times its block's scale. -/
theorem scaledD_apply (wq : FVec Ideal SD .f32) (ws : FVec Ideal SDs .f32) (h1 : SD.ShapeCasts D4)
    (h2 : SDs.BroadcastsInDim D4u (![0, 2] : Fin 2 → Fin D4u.rank))
    (h3 : D4u.BroadcastsInDim D4 (![0, 1, 2, 3] : Fin 4 → Fin D4.rank)) (h4 : D4.ShapeCasts SD) (i : SD.Idx) :
    shapeCast SD (mulf (shapeCast D4 wq h1) (broadcastInDim D4 ![0, 1, 2, 3] h3 (broadcastInDim D4u ![0, 2] h2 ws))) h4 i
      = scaledD wq ws i := by
  have hi0 : (i 0).val < 2048 := idx2_lt0 i
  have hi1 : (i 1).val < 7168 := idx2_lt1 i
  refine (shapeCast_apply _ h4 i (dIdx4 i) (by
    rw [Shape.rowMajor_val_four, Shape.rowMajor_val_two]
    show (((i 0).val / 128 * 128 + (i 0).val % 128) * 56 + (i 1).val / 128) * 128 + (i 1).val % 128 = (i 0).val * 7168 + (i 1).val
    omega)).trans ?_
  show shapeCast D4 wq h1 (dIdx4 i) * broadcastInDim D4 ![0, 1, 2, 3] h3 (broadcastInDim D4u ![0, 2] h2 ws) (dIdx4 i) = wq i * ws (ix2 (blk 16 (i 0) rfl) (blk 56 (i 1) rfl))
  congr 1
  · exact shapeCast_apply wq h1 (dIdx4 i) i (by
      rw [Shape.rowMajor_val_four, Shape.rowMajor_val_two]
      show (i 0).val * 7168 + (i 1).val = (((i 0).val / 128 * 128 + (i 0).val % 128) * 56 + (i 1).val / 128) * 128 + (i 1).val % 128
      omega)
  · refine (broadcastInDim_apply _ h3 _ (dIdx4 i)
      (ix4 (⟨(i 0).val / 128, by omega⟩ : Fin 16) (0 : Fin 1) (⟨(i 1).val / 128, by omega⟩ : Fin 56) (0 : Fin 1)) (fun a => match a with
        | ⟨0, _⟩ => by show (i 0).val / 128 = if (16 : Nat) = 1 then 0 else (i 0).val / 128; rw [if_neg (by decide)]
        | ⟨1, _⟩ => by show 0 = if (1 : Nat) = 1 then 0 else (i 0).val % 128; rw [if_pos rfl]
        | ⟨2, _⟩ => by show (i 1).val / 128 = if (56 : Nat) = 1 then 0 else (i 1).val / 128; rw [if_neg (by decide)]
        | ⟨3, _⟩ => by show 0 = if (1 : Nat) = 1 then 0 else (i 1).val % 128; rw [if_pos rfl])).trans ?_
    exact broadcastInDim_apply _ h2 ws _ (ix2 (blk 16 (i 0) rfl) (blk 56 (i 1) rfl)) (fun a => match a with
        | ⟨0, _⟩ => by show (i 0).val / 128 = if (16 : Nat) = 1 then 0 else (i 0).val / 128; rw [if_neg (by decide)]
        | ⟨1, _⟩ => by show (i 1).val / 128 = if (56 : Nat) = 1 then 0 else (i 1).val / 128; rw [if_neg (by decide)])

/-- The five steps on the down-projection weight are the block-scaled weight. -/
theorem scaledD_eq (wq : FVec Ideal SD .f32) (ws : FVec Ideal SDs .f32) (h1 : SD.ShapeCasts D4)
    (h2 : SDs.BroadcastsInDim D4u (![0, 2] : Fin 2 → Fin D4u.rank))
    (h3 : D4u.BroadcastsInDim D4 (![0, 1, 2, 3] : Fin 4 → Fin D4.rank)) (h4 : D4.ShapeCasts SD) :
    shapeCast SD (mulf (shapeCast D4 wq h1) (broadcastInDim D4 ![0, 1, 2, 3] h3 (broadcastInDim D4u ![0, 2] h2 ws))) h4
      = scaledD wq ws :=
  funext fun i => scaledD_apply wq ws h1 h2 h3 h4 i

end Cert.GatedFfn

end
-- ==== Proof.IdealPrologue.lean ====
/-
  The kernel program's host prologue on the extended reals.

  Before its first region the kernel program runs nineteen host operations: the tokens converted to the narrower
  float format; and, for each of the three weights, the five steps of the block-scaling chain (re-index by blocks,
  place the scales on axes 0 and 2, repeat them along the unit axes, multiply, re-index back) followed by the same
  conversion. On the extended reals a change of float format is the identity, so the prologue leaves the tokens as
  they were and each weight as the entry times its block's scale.
-/
import proofs.«151965_j90640989814791_2_alg».proof.Proof.Gen.KernelIdeal.Launch
import proofs.«151965_j90640989814791_2_alg».proof.Proof.Spec
import proofs.«151965_j90640989814791_2_alg».proof.Proof.ScaledWeight
import Idealize.ShloMosaic.Lib.StableHlo.Run
import Idealize.ShloMosaic.Lib.ValueIdx

noncomputable section

namespace Cert.KernelIdeal.Prologue

open Cert.KernelIdeal Cert.KernelIdeal.Gen Idealize.ShloMosaic Idealize.ShloMosaic.TcCoe Idealize.SL.Sem
  Idealize.ShloMosaic.StableHlo Cert.GatedFfn

/-- The prologue leaves the tokens as they were. -/
theorem tokens (W : Valuation Cert.KernelIdeal.τ Cert.KernelIdeal.sig (Elt Ideal)) :
    (StableHlo.after (hostOps0 (F := Ideal)) W (Proc.devRef .tc main_v0) : SX.Idx → EReal)
      = (W (Proc.devRef .tc main_arg0) : SX.Idx → EReal) := by
  after_results
  rfl

/-- The prologue leaves the first up-projection weight multiplied out by blocks. -/
theorem gate_weights (W : Valuation Cert.KernelIdeal.τ Cert.KernelIdeal.sig (Elt Ideal)) :
    (StableHlo.after (hostOps0 (F := Ideal)) W (Proc.devRef .tc main_v6) : SW.Idx → EReal)
      = scaledW (W (Proc.devRef .tc main_arg1)) (W (Proc.devRef .tc main_arg2)) := by
  -- what the operations wrote, as one term of the arguments (the conversion at the end is the identity)
  have e : @Eq (SW.Idx → EReal) (StableHlo.after (hostOps0 (F := Ideal)) W (Proc.devRef .tc main_v6))
      (shapeCast SW (mulf (F := Ideal) (φ := .f32) (shapeCast S4 (W (Proc.devRef .tc main_arg1) : FVec Ideal SW .f32) shapeCasts_S7168x2048_S56x128x16x128)
          (broadcastInDim S4 ![0, 1, 2, 3] bcast_S56x1x16x1_S56x128x16x128_0_1_2_3
            (broadcastInDim S4u ![0, 2] bcast_S56x16_S56x1x16x1_0_2 (W (Proc.devRef .tc main_arg2) : FVec Ideal SWs .f32)))) shapeCasts_S56x128x16x128_S7168x2048) := by
    after_results
    rfl
  exact e.trans (scaledW_eq _ _ _ _ _ _)

/-- The prologue leaves the second up-projection weight multiplied out by blocks. -/
theorem up_weights (W : Valuation Cert.KernelIdeal.τ Cert.KernelIdeal.sig (Elt Ideal)) :
    (StableHlo.after (hostOps0 (F := Ideal)) W (Proc.devRef .tc main_v12) : SW.Idx → EReal)
      = scaledW (W (Proc.devRef .tc main_arg3)) (W (Proc.devRef .tc main_arg4)) := by
  -- what the operations wrote, as one term of the arguments (the conversion at the end is the identity)
  have e : @Eq (SW.Idx → EReal) (StableHlo.after (hostOps0 (F := Ideal)) W (Proc.devRef .tc main_v12))
      (shapeCast SW (mulf (F := Ideal) (φ := .f32) (shapeCast S4 (W (Proc.devRef .tc main_arg3) : FVec Ideal SW .f32) shapeCasts_S7168x2048_S56x128x16x128)
          (broadcastInDim S4 ![0, 1, 2, 3] bcast_S56x1x16x1_S56x128x16x128_0_1_2_3
            (broadcastInDim S4u ![0, 2] bcast_S56x16_S56x1x16x1_0_2 (W (Proc.devRef .tc main_arg4) : FVec Ideal SWs .f32)))) shapeCasts_S56x128x16x128_S7168x2048) := by
    after_results
    rfl
  exact e.trans (scaledW_eq _ _ _ _ _ _)

/-- The prologue leaves the down-projection weight multiplied out by blocks. -/
theorem down_weights (W : Valuation Cert.KernelIdeal.τ Cert.KernelIdeal.sig (Elt Ideal)) :
    (StableHlo.after (hostOps0 (F := Ideal)) W (Proc.devRef .tc main_v18) : SD.Idx → EReal)
      = scaledD (W (Proc.devRef .tc main_arg5)) (W (Proc.devRef .tc main_arg6)) := by
  -- what the operations wrote, as one term of the arguments (the conversion at the end is the identity)
  have e : @Eq (SD.Idx → EReal) (StableHlo.after (hostOps0 (F := Ideal)) W (Proc.devRef .tc main_v18))
      (shapeCast SD (mulf (F := Ideal) (φ := .f32) (shapeCast D4 (W (Proc.devRef .tc main_arg5) : FVec Ideal SD .f32) shapeCasts_S2048x7168_S16x128x56x128)
          (broadcastInDim D4 ![0, 1, 2, 3] bcast_S16x1x56x1_S16x128x56x128_0_1_2_3
            (broadcastInDim D4u ![0, 2] bcast_S16x56_S16x1x56x1_0_2 (W (Proc.devRef .tc main_arg6) : FVec Ideal SDs .f32)))) shapeCasts_S16x128x56x128_S2048x7168) := by
    after_results
    rfl
  exact e.trans (scaledD_eq _ _ _ _ _ _)

end Cert.KernelIdeal.Prologue

end
-- ==== Proof.IdealWhole.lean ====
/-
  The idealized kernel program's result: main_v20 ends holding the gated feed-forward layer's output of the argument
  arrays.

  The last boundary's contents are read back through the two regions. The second region leaves in main_v20 the
  contraction over the hidden axis of its two input arrays as it found them: main_v19, which the first region left at
  the gated hidden activation of ITS input arrays, and main_v18, which the host prologue made, untouched since. The
  prologue's arrays are the tokens themselves and the three block-scaled weights. Composed, that is the layer.
-/
import proofs.«151965_j90640989814791_2_alg».proof.Proof.IdealRun
import proofs.«151965_j90640989814791_2_alg».proof.Proof.IdealUpValue
import proofs.«151965_j90640989814791_2_alg».proof.Proof.IdealDownValue
import proofs.«151965_j90640989814791_2_alg».proof.Proof.IdealPrologue
import proofs.«151965_j90640989814791_2_alg».proof.Proof.Spec

noncomputable section

namespace Cert.KernelIdeal.Whole

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

/-- The tokens as the first region finds them are the argument. -/
theorem tokens_eq (c : Dev nD) : V1 (F := Ideal) m ρ c main_v0 = m ((c : Thread nD τ).loc main_arg0) :=
  Prologue.tokens (W0 (F := Ideal) m ρ c)

/-- The gate weights as the first region finds them. -/
theorem gate_eq (c : Dev nD) :
    V1 (F := Ideal) m ρ c main_v6 = Cert.GatedFfn.scaledW (m ((c : Thread nD τ).loc main_arg1)) (m ((c : Thread nD τ).loc main_arg2)) :=
  Prologue.gate_weights (W0 (F := Ideal) m ρ c)

/-- The up weights as the first region finds them. -/
theorem up_eq (c : Dev nD) :
    V1 (F := Ideal) m ρ c main_v12 = Cert.GatedFfn.scaledW (m ((c : Thread nD τ).loc main_arg3)) (m ((c : Thread nD τ).loc main_arg4)) :=
  Prologue.up_weights (W0 (F := Ideal) m ρ c)

/-- The down weights as the second region finds them: the first region does not touch them. -/
theorem down_eq (c : Dev nD) :
    V2 (F := Ideal) m ρ c main_v18 = Cert.GatedFfn.scaledD (m ((c : Thread nD τ).loc main_arg5)) (m ((c : Thread nD τ).loc main_arg6)) :=
  (W2_of_ne (F := Ideal) m ρ c main_v18 (by decide)).trans (Prologue.down_weights (W0 (F := Ideal) m ρ c))

/-- The hidden activation as the second region finds it: what the first region left. -/
theorem hidden_eq (c : Dev nD) :
    V2 (F := Ideal) m ρ c main_v19 = Cert.GatedFfn.hidden (m ((c : Thread nD τ).loc main_arg0))
      (Cert.GatedFfn.scaledW (m ((c : Thread nD τ).loc main_arg1)) (m ((c : Thread nD τ).loc main_arg2)))
      (Cert.GatedFfn.scaledW (m ((c : Thread nD τ).loc main_arg3)) (m ((c : Thread nD τ).loc main_arg4))) := by
  refine (W2_arr (F := Ideal) m ρ c 3).trans ((UpValue.final_hidden (V1 (F := Ideal) m ρ) c).trans ?_)
  rw [tokens_eq m ρ c, gate_eq m ρ c, up_eq m ρ c]

/-- The result array at the last boundary. -/
theorem result_eq (c : Dev nD) :
    W3 (F := Ideal) m ρ c (Proc.devRef .tc main_v20) = Cert.GatedFfn.out (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (W3_arr (F := Ideal) m ρ c 2).trans ((DownValue.final_out (V2 (F := Ideal) m ρ) c).trans ?_)
  rw [hidden_eq m ρ c, down_eq m ρ c]
  rfl

/-- THE RUN, READ: every fair execution ends with the result array at the layer's output of the arguments and the
    arguments as launched. -/
theorem run_out : θ_run (defs (F := Ideal)) (onTc (τ := τ) (main (F := Ideal))) ⟨m, fun _ => 0, ρ⟩ (fun r => ∀ c : Dev nD,
      r.2.mem ((c.tc : Thread nD τ).loc main_v20) = Cert.GatedFfn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_main (F := Ideal) m ρ fun s h c =>
    ⟨(h c _ (mem_uc main_v20 (by decide))).trans (result_eq m ρ c),
     (h c _ (mem_uc main_arg0 (by decide))).trans (W3_arg m ρ c main_arg0 (by decide)),
     (h c _ (mem_uc main_arg1 (by decide))).trans (W3_arg m ρ c main_arg1 (by decide)),
     (h c _ (mem_uc main_arg2 (by decide))).trans (W3_arg m ρ c main_arg2 (by decide)),
     (h c _ (mem_uc main_arg3 (by decide))).trans (W3_arg m ρ c main_arg3 (by decide)),
     (h c _ (mem_uc main_arg4 (by decide))).trans (W3_arg m ρ c main_arg4 (by decide)),
     (h c _ (mem_uc main_arg5 (by decide))).trans (W3_arg m ρ c main_arg5 (by decide)),
     (h c _ (mem_uc main_arg6 (by decide))).trans (W3_arg m ρ c main_arg6 (by decide))⟩

end Cert.KernelIdeal.Whole

end
-- ==== Proof.RefValue.lean ====
/-
  The reference program computes the gated feed-forward layer of the specification.

  Read one operation at a time (the generated read-at-an-index lemmas), the reference is: each of the three weights
  multiplied out by blocks (the five steps of the block-scaling chain: the entry times its block's scale); each
  up-projection weight transposed and contracted against the tokens over the model-width axis,
  g (t, f) = Σ_k x (t, k) · w1 (f, k) and u (t, f) = Σ_k x (t, k) · w3 (f, k); the gate g · (1 / (1 + e^(−g))), which is
  g · σ g because the extended reals' quotient 1 / (1 + e^(−g)) is the logistic function by definition; the product
  with u; and the down-projection weight transposed and contracted over the hidden axis. A transpose followed by a
  contraction over its first axis reads the weight at (f, k), so each contraction is the specification's sum term
  by term.
-/
import proofs.«151965_j90640989814791_2_alg».proof.Proof.Gen.ReferenceIdeal.Run
import proofs.«151965_j90640989814791_2_alg».proof.Proof.Gen.ReferenceIdeal.Read
import proofs.«151965_j90640989814791_2_alg».proof.Proof.Spec
import proofs.«151965_j90640989814791_2_alg».proof.Proof.ScaledWeight

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Cert.GatedFfn

/-- The word 0x3F800000 is the float 1. -/
theorem ofBits_one : Ideal.ofBits .f32 0x3F800000#32 = 1 := by
  simp [Ideal.ofBits, Ideal.ieee, -EReal.coe_mul]; norm_num

/-! ## The three weights, multiplied out -/

theorem w1_eq (x1 : FVec Ideal SW .f32) (x2 : FVec Ideal SWs .f32) : val_main_v4 (F := Ideal) x1 x2 = scaledW x1 x2 :=
  scaledW_eq x1 x2 _ _ _ _

theorem w3_eq (x3 : FVec Ideal SW .f32) (x4 : FVec Ideal SWs .f32) : val_main_v9 (F := Ideal) x3 x4 = scaledW x3 x4 :=
  scaledW_eq x3 x4 _ _ _ _

theorem w2_eq (x5 : FVec Ideal SD .f32) (x6 : FVec Ideal SDs .f32) : val_main_v14 (F := Ideal) x5 x6 = scaledD x5 x6 :=
  scaledD_eq x5 x6 _ _ _ _

/-! ## The two up-projections -/

/-- g = x · w1ᵀ. -/
theorem g_eq (x0 : FVec Ideal SX .f32) (x1 : FVec Ideal SW .f32) (x2 : FVec Ideal SWs .f32) :
    val_main_v16 (F := Ideal) x0 x1 x2 = proj x0 (scaledW x1 x2) := by
  funext j
  rw [val_main_v16_apply]
  unfold proj
  refine Finset.sum_congr rfl fun k _ => ?_
  rw [val_main_v15_apply, w1_eq]
  have e1 : lidx_main_v16 j k = ix2 (j 0) k := funext fun a => by match a with | ⟨0, _⟩ => rfl | ⟨1, _⟩ => rfl
  have e2 : idx_main_v15 (ridx_main_v16 j k) = ix2 (j 1) k := funext fun a => by match a with | ⟨0, _⟩ => rfl | ⟨1, _⟩ => rfl
  rw [e1, e2]
  rfl

/-- u = x · w3ᵀ. -/
theorem u_eq (x0 : FVec Ideal SX .f32) (x3 : FVec Ideal SW .f32) (x4 : FVec Ideal SWs .f32) :
    val_main_v18 (F := Ideal) x0 x3 x4 = proj x0 (scaledW x3 x4) := by
  funext j
  rw [val_main_v18_apply]
  unfold proj
  refine Finset.sum_congr rfl fun k _ => ?_
  rw [val_main_v17_apply, w3_eq]
  have e1 : lidx_main_v18 j k = ix2 (j 0) k := funext fun a => by match a with | ⟨0, _⟩ => rfl | ⟨1, _⟩ => rfl
  have e2 : idx_main_v17 (ridx_main_v18 j k) = ix2 (j 1) k := funext fun a => by match a with | ⟨0, _⟩ => rfl | ⟨1, _⟩ => rfl
  rw [e1, e2]
  rfl

/-! ## The gate -/

/-- 1 / (1 + e^(−g)) is σ g. -/
theorem sigma_eq (x0 : FVec Ideal SX .f32) (x1 : FVec Ideal SW .f32) (x2 : FVec Ideal SWs .f32) (j : SH.Idx) :
    val_main_call0_v5 (F := Ideal) x0 x1 x2 j = Ideal.logistic (val_main_v16 (F := Ideal) x0 x1 x2 j) := by
  show Ideal.div (Ideal.ofBits .f32 0x3F800000#32) (Ideal.ofBits .f32 0x3F800000#32 + Ideal.exp (-(val_main_v16 (F := Ideal) x0 x1 x2 j))) = _
  rw [ofBits_one]
  rfl

/-- h = (g · σ g) · u. -/
theorem h_eq (x0 : FVec Ideal SX .f32) (x1 : FVec Ideal SW .f32) (x2 : FVec Ideal SWs .f32) (x3 : FVec Ideal SW .f32) (x4 : FVec Ideal SWs .f32) :
    val_main_v20 (F := Ideal) x0 x1 x2 x3 x4 = hidden x0 (scaledW x1 x2) (scaledW x3 x4) := by
  funext j
  show (val_main_v16 (F := Ideal) x0 x1 x2 j * val_main_call0_v5 (F := Ideal) x0 x1 x2 j) * val_main_v18 (F := Ideal) x0 x3 x4 j = _
  rw [sigma_eq, g_eq, u_eq]
  rfl

/-! ## The down-projection -/

/-- The reference's result, as a function of its seven arguments, is the specification's. -/
theorem result_eq (x0 : FVec Ideal SX .f32) (x1 : FVec Ideal SW .f32) (x2 : FVec Ideal SWs .f32) (x3 : FVec Ideal SW .f32) (x4 : FVec Ideal SWs .f32)
    (x5 : FVec Ideal SD .f32) (x6 : FVec Ideal SDs .f32) :
    val_main_v22 (F := Ideal) x0 x1 x2 x3 x4 x5 x6 = Cert.GatedFfn.out x0 x1 x2 x3 x4 x5 x6 := by
  funext i
  rw [val_main_v22_apply]
  unfold Cert.GatedFfn.out contract
  refine Finset.sum_congr rfl fun k _ => ?_
  rw [h_eq, val_main_v21_apply, w2_eq]
  have e1 : lidx_main_v22 i k = ix2 (i 0) k := funext fun a => by match a with | ⟨0, _⟩ => rfl | ⟨1, _⟩ => rfl
  have e2 : idx_main_v21 (ridx_main_v22 i k) = ix2 (i 1) k := funext fun a => by match a with | ⟨0, _⟩ => rfl | ⟨1, _⟩ => rfl
  rw [e1, e2]
  rfl

/-! ## The run -/

/-- Every fair execution of the reference ends with its result at the specification's function of the arguments, the
    arguments unchanged. -/
theorem run_out (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v22)
          = Cert.GatedFfn.out (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run (Cert.ReferenceIdeal.defs (F := Ideal)) _ _).mono
    (fun _ h c => ⟨(h c).1.trans ((val_main_v22_eq (F := Ideal) _ _ _ _ _ _ _).trans (result_eq _ _ _ _ _ _ _)), (h c).2⟩)
    (Cert.ReferenceIdeal.Value.run (F := Ideal) m' ρ')

end Cert.ReferenceIdeal.RefValue

end
-- ==== Proof.lean ====
/-
  The certificate of a gated feed-forward layer with block-scaled weights.

  The kernel program computes out = ((x · w1ᵀ) · σ (x · w1ᵀ) · (x · w3ᵀ)) · w2ᵀ in two pipelined regions: the first forms
  the gated hidden activation block by block over the full model width; the second contracts it with the
  down-projection, accumulating over seven blocks of the hidden axis in a scratch block that it resets at the first
  block of every run and copies out at the last. The reference forms the same three products whole. On the extended reals
  a change of float format is the identity, the kernel's logistic function is the reference's 1 / (1 + e^(−z)) by
  definition, and a sum over 7168 hidden units is the sum over its seven blocks of 1024 in any grouping: addition of
  extended reals is commutative and associative, so no entry need be finite. Both programs therefore end holding
  `Cert.GatedFfn.out` of the seven argument arrays.

  The three frames: each kernel program runs region by region under its pipeline's invariant and leaves the arguments
  as launched; the reference is a straight line of host operations.
-/
import proofs.«151965_j90640989814791_2_alg».proof.Defs
import proofs.«151965_j90640989814791_2_alg».proof.Proof.Gen.Kernel
import proofs.«151965_j90640989814791_2_alg».proof.Proof.Gen.KernelIdeal
import proofs.«151965_j90640989814791_2_alg».proof.Proof.Gen.ReferenceIdeal
import proofs.«151965_j90640989814791_2_alg».proof.Proof.Gen.ReferenceIdeal.Run
import proofs.«151965_j90640989814791_2_alg».proof.Proof.Gen.Pre_finite_inputs
import proofs.«151965_j90640989814791_2_alg».proof.Proof.BitsRun
import proofs.«151965_j90640989814791_2_alg».proof.Proof.IdealWhole
import proofs.«151965_j90640989814791_2_alg».proof.Proof.RefValue

noncomputable section

namespace Cert.Proof

open Idealize.ShloMosaic Idealize.SL.Sem

/-- The kernel program as printed runs to the end, faults nowhere and leaves its arguments unchanged. -/
theorem frame_kernel : Cert.frame_Kernel := fun m ρ _ => Cert.Kernel.Hand.frame m ρ

/-- So does its idealization. -/
theorem frame_ideal : Cert.frame_KernelIdeal := fun m ρ _ => Cert.KernelIdeal.Hand.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs, run from memories that agree on the arguments, end with the layer's output of those
    arguments in their result arrays. -/
theorem algebraic : Cert.algebraic_KernelIdeal_ReferenceIdeal := by
  intro m ρ m' ρ' _ hagree
  refine ⟨fun c => Cert.GatedFfn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Whole.run_out m ρ, ?_⟩
  refine (θ_run Cert.ReferenceIdeal.defs _ _).mono (fun _ h c => ⟨(h c).1.trans ?_, (h c).2⟩)
    (Cert.ReferenceIdeal.RefValue.run_out m' ρ')
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
